-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x128 : Shape := ⟨2, ![256, 128]⟩
abbrev S128 : Shape := ⟨1, ![128]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S4096x256 .f32) (main_arg1 : FVec F S4096x4096 .f32) (main_arg2 : FVec F S256x128 .f32) (main_arg3 : FVec F S128 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4096x256 : Shape := ⟨2, ![4096, 256]⟩
abbrev S4096x4096 : Shape := ⟨2, ![4096, 4096]⟩
abbrev S256x128 : Shape := ⟨2, ![256, 128]⟩
abbrev S128 : Shape := ⟨1, ![128]⟩
abbrev S1x128 : Shape := ⟨2, ![1, 128]⟩
abbrev S4096x128 : Shape := ⟨2, ![4096, 128]⟩
abbrev S512x4096 : Shape := ⟨2, ![512, 4096]⟩
abbrev S512x128 : Shape := ⟨2, ![512, 128]⟩

abbrev nBuf : Space → Nat
  | .hbm => 6
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x128, .f32⟩
  | .hbm, ⟨3, _⟩ => ⟨S128, .f32⟩
  | .hbm, ⟨4, _⟩ => ⟨S1x128, .f32⟩
  | .hbm, ⟨5, _⟩ => ⟨S4096x128, .f32⟩
  | .local _ .vmem, ⟨0, _⟩ => ⟨S4096x256, .f32⟩
  | .local _ .vmem, ⟨1, _⟩ => ⟨S256x128, .f32⟩
  | .local _ .vmem, ⟨2, _⟩ => ⟨S512x4096, .f32⟩
  | .local _ .vmem, ⟨3, _⟩ => ⟨S512x4096, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S4096x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S4096x256_S4096x256_0_0 : ∀ a, (![0, 0] : Fin 2 → Nat) a + S4096x256.size a ≤ S4096x256.size a
  h_S4096x256 : 0 < S4096x256.numel
  inb_S256x128_S256x128_0_0 : ∀ a, (![0, 0] : Fin 2 → Nat) a + S256x128.size a ≤ S256x128.size a
  h_S256x128 : 0 < S256x128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S512x4096_S512x4096_0_0 : ∀ a, (![0, 0] : Fin 2 → Nat) a + S512x4096.size a ≤ S512x4096.size a
  h_S512x4096 : 0 < S512x4096.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  dot_S4096x256_S256x128_S4096x128_1_0_0_1_n_n_wf : DotDims.WF S4096x256 S256x128 S4096x128 [1] [0] [0] [1] [] []
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .f32 = 32 ∨ (Rect.block (s := S4096x4096) S512x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S4096x128.size a
  hwx0_4 : ∀ i : grid0.Coords, EltTy.bits .f32 = 32 ∨ (Rect.block (s := S4096x128) S512x128.size (cc0_transform_4 i) (hinb0_4 i)).WholeWords (EltTy.packing .f32)

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x128 : Shape := ⟨2, ![256, 128]⟩
abbrev S128 : Shape := ⟨1, ![128]⟩
abbrev S1x128 : Shape := ⟨2, ![1, 128]⟩
abbrev S4096x128 : Shape := ⟨2, ![4096, 128]⟩
abbrev S512x256 : Shape := ⟨2, ![512, 256]⟩
abbrev S512x128 : Shape := ⟨2, ![512, 128]⟩
abbrev S512x512 : Shape := ⟨2, ![512, 512]⟩

abbrev nBuf : Space → Nat
  | .hbm => 8
  | .vmem => 12
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x128, .f32⟩
  | .hbm, ⟨3, _⟩ => ⟨S128, .f32⟩
  | .hbm, ⟨4, _⟩ => ⟨S1x128, .f32⟩
  | .hbm, ⟨5, _⟩ => ⟨S4096x4096, .bf16⟩
  | .hbm, ⟨6, _⟩ => ⟨S4096x128, .bf16⟩
  | .hbm, ⟨7, _⟩ => ⟨S4096x128, .f32⟩
  | .local _ .vmem, ⟨0, _⟩ => ⟨S512x256, .f32⟩
  | .local _ .vmem, ⟨1, _⟩ => ⟨S512x256, .f32⟩
  | .local _ .vmem, ⟨2, _⟩ => ⟨S256x128, .f32⟩
  | .local _ .vmem, ⟨3, _⟩ => ⟨S512x128, .bf16⟩
  | .local _ .vmem, ⟨4, _⟩ => ⟨S512x128, .bf16⟩
  | .local _ .vmem, ⟨5, _⟩ => ⟨S512x128, .f32⟩
  | .local _ .vmem, ⟨6, _⟩ => ⟨S512x512, .bf16⟩
  | .local _ .vmem, ⟨7, _⟩ => ⟨S512x512, .bf16⟩
  | .local _ .vmem, ⟨8, _⟩ => ⟨S4096x128, .bf16⟩
  | .local _ .vmem, ⟨9, _⟩ => ⟨S1x128, .f32⟩
  | .local _ .vmem, ⟨10, _⟩ => ⟨S512x128, .f32⟩
  | .local _ .vmem, ⟨11, _⟩ => ⟨S512x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_mult1 (i : grid1.Coords) : BitVec 32 :=
  let arg1 : BitVec 32 := BitVec.ofNat 32 (i 1).val
  let c512_i32 : BitVec 32 := 512#32
  let v3 : BitVec 32 := Scalar.muli arg1 c512_i32
  v3
def k1_off1 (i : grid1.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v9 : Index := Scalar.indexCast v4
  let c0_4 : Index := 0#32
  ![v9.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S4096x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S128_S1x128 : S128.ShapeCasts S1x128
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x256_S512x256_0_0 : ∀ a, (![0, 0] : Fin 2 → Nat) a + S512x256.size a ≤ S512x256.size a
  h_S512x256 : 0 < S512x256.numel
  inb_S256x128_S256x128_0_0 : ∀ a, (![0, 0] : Fin 2 → Nat) a + S256x128.size a ≤ S256x128.size a
  h_S256x128 : 0 < S256x128.numel
  packedbf16_S512x128_S512x128_0_0 : (Rect.unit (s := S512x128) ![0, 0] S512x128.size inb_S512x128_S512x128_0_0).PackedRows (EltTy.packing .bf16)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  dot_S512x256_S256x128_S512x128_1_0_0_1_n_n_wf : DotDims.WF S512x256 S256x128 S512x128 [1] [0] [0] [1] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .bf16 = 32 ∨ (Rect.block (s := S4096x128) S512x128.size (cc0_transform_2 i) (hinb0_2 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S512x128.size a ≤ S4096x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x4096.size a
  hwx1_0 : ∀ i : grid1.Coords, EltTy.bits .bf16 = 32 ∨ (Rect.block (s := S4096x4096) S512x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .bf16 = 32 ∨ (Rect.block (s := S4096x128) S4096x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S4096x128.size a
  hwx1_3 : ∀ i : grid1.Coords, EltTy.bits .f32 = 32 ∨ (Rect.block (s := S4096x128) S512x128.size (cc1_transform_3 i) (hinb1_3 i)).WholeWords (EltTy.packing .f32)

variable [Facts₀]

def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v1) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.KernelPieces.lean ====
/-
  What one grid point of the graph-convolution kernel leaves behind, as values of the blocks it loaded.

  The kernel keeps the support matrix  x · W  (4096 × 128) in a buffer that lives across the eight grid
  points.  The first point computes it from the whole arrays x and W and stores it; every point then
  multiplies its 512 × 4096 row block of the adjacency by the stored support matrix and adds the bias row.
  So, whatever the float values are:

    * the first point leaves in the carried buffer the product of the x block by the W block, and in its
      output block the product of its adjacency block by that same product, plus the broadcast bias row;
    * a later point leaves the carried buffer as it found it, and in its output block the product of its
      adjacency block by what the buffer held, plus the broadcast bias row;
    * hence the carried buffer holds, after every point, the product computed at the first point
      (induction on the point), and every point writes back the product of its adjacency block by that
      one matrix, plus the bias row.
-/
import proofs.«131383_g2000703821448203_pallasbulk_153_16_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.GcnValue

open Cert.KernelIdeal Cert.KernelIdeal.Gen

variable {F : FTy → Type} [FloatOps F]
variable (m : (ℓ : Loc nD τ sig) → Buf (Elt F) ℓ)

/-- The zero offsets of a whole-buffer access. -/
theorem hz : (![0, 0] : Fin 2 → Nat) = fun _ => 0 := funext fun a => by fin_cases a <;> rfl

/-- First point: the carried buffer ends holding the product of the loaded x block by the loaded W block
    (its one store covers the buffer; both loads read whole buffers). -/
theorem scratch_A (c : Dev nD) (i : grid0.Coords) (a1 : Memref sig .tc .vmem S4096x256 .f32) (h1 : a1.IsWhole)
    (a2 : Memref sig .tc .vmem S256x128 .f32) (h2 : a2.IsWhole) (a3 : Memref sig .tc .vmem S512x4096 .f32) (h3 : a3.IsWhole)
    (a4 : Memref sig .tc .vmem S1x128 .f32) (h4 : a4.IsWhole) (a5 : Memref sig .tc .vmem S512x128 .f32) (h5 : a5.IsWhole)
    (a6 : Memref sig .tc .vmem S4096x128 .f32) (h6 : a6.IsWhole) (hc : cond0_0 i)
    (x0 : Vec F S4096x256 .f32) (x1 : Vec F S256x128 .f32) (x2 : Vec F S512x4096 .f32) (x3 : Vec F S1x128 .f32) :
    sout0_A_0 c i a1 h1 a2 h2 a3 h3 a4 h4 a5 h5 a6 h6 hc x0 x1 x2 x3 = k0_pay1 x0 x1 := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  rw [View.canon_unit_zero hz]
  simp only [View.readAt_eq_ld, h1.read_unread, h2.read_unread, View.ld_unit_zero (S := S4096x256) hz,
    View.ld_unit_zero (S := S256x128) hz]

/-- First point: the output block ends holding the adjacency block times the product just stored (the store into
    the carried buffer is read back whole), plus the bias row. -/
theorem out_A (c : Dev nD) (i : grid0.Coords) (a1 : Memref sig .tc .vmem S4096x256 .f32) (h1 : a1.IsWhole)
    (a2 : Memref sig .tc .vmem S256x128 .f32) (h2 : a2.IsWhole) (a3 : Memref sig .tc .vmem S512x4096 .f32) (h3 : a3.IsWhole)
    (a4 : Memref sig .tc .vmem S1x128 .f32) (h4 : a4.IsWhole) (a5 : Memref sig .tc .vmem S512x128 .f32) (h5 : a5.IsWhole)
    (a6 : Memref sig .tc .vmem S4096x128 .f32) (h6 : a6.IsWhole) (hc : cond0_0 i)
    (x0 : Vec F S4096x256 .f32) (x1 : Vec F S256x128 .f32) (x2 : Vec F S512x4096 .f32) (x3 : Vec F S1x128 .f32) :
    out0_A_4 c i a1 h1 a2 h2 a3 h3 a4 h4 a5 h5 a6 h6 hc x0 x1 x2 x3 = k0_pay2 x2 (k0_pay1 x0 x1) x3 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero hz, View.readCov_unit_zero (S := S4096x128) _ hz]
  simp only [View.readAt_eq_ld, h1.read_unread, h2.read_unread, h3.read_unread, h4.read_unread,
    View.ld_unit_zero (S := S4096x256) hz, View.ld_unit_zero (S := S256x128) hz,
    View.ld_unit_zero (S := S512x4096) hz, View.ld_unit_zero (S := S1x128) hz]

/-- A later point: the output block ends holding the adjacency block times what the carried buffer held, plus the
    bias row. -/
theorem out_B (c : Dev nD) (i : grid0.Coords) (a1 : Memref sig .tc .vmem S4096x256 .f32) (h1 : a1.IsWhole)
    (a2 : Memref sig .tc .vmem S256x128 .f32) (h2 : a2.IsWhole) (a3 : Memref sig .tc .vmem S512x4096 .f32) (h3 : a3.IsWhole)
    (a4 : Memref sig .tc .vmem S1x128 .f32) (h4 : a4.IsWhole) (a5 : Memref sig .tc .vmem S512x128 .f32) (h5 : a5.IsWhole)
    (a6 : Memref sig .tc .vmem S4096x128 .f32) (h6 : a6.IsWhole) (hc : ¬cond0_0 i)
    (x0 : Vec F S4096x256 .f32) (x1 : Vec F S256x128 .f32) (x2 : Vec F S512x4096 .f32) (x3 : Vec F S1x128 .f32) (xs0 : Vec F S4096x128 .f32) :
    out0_B_4 c i a1 h1 a2 h2 a3 h3 a4 h4 a5 h5 a6 h6 hc x0 x1 x2 x3 xs0 = k0_pay2 x2 xs0 x3 := by
  unfold out0_B_4
  rw [View.read_writes_eq_canon _ _ _ (cover0_B_4 c i a1 h1 a2 h2 a3 h3 a4 h4 a5 h5 a6 h6 hc x0 x1 x2 x3 xs0)]
  unfold kernelRun0_B
  dsimp only
  rw [View.canon_unit_zero hz]
  simp only [View.readAt_eq_ld, h3.read_unread, h4.read_unread, h6.read_unread,
    View.ld_unit_zero (S := S512x4096) hz, View.ld_unit_zero (S := S1x128) hz, View.ld_unit_zero (S := S4096x128) hz]

end Cert.KernelIdeal.GcnValue
end
-- ==== Proof.KernelBlocks.lean ====
/-
  Where the graph-convolution kernel's blocks sit in their arrays.

  The windows of x, of W and of the one-row bias have a constant index map and a block that is the whole
  array: at every grid point the block read IS the array as the kernel finds it.  The window of the adjacency
  and the window of the output move down by one block of 512 rows per grid point and do not move along the
  columns: row r of point t's block is row 512 · t + r of the array, column for column.  (A block's
  coordinate in its array is always the block index times the block's extent plus the coordinate inside
  the block; the index maps' values are decided once over the eight grid points.)
-/
import proofs.«131383_g2000703821448203_pallasbulk_153_16_alg».proof.Proof.Gen.KernelIdeal.Frame.Runs
import Idealize.ShloMosaic.Lib.ValueIdx

noncomputable section

open Idealize.ShloMosaic Idealize.ShloMosaic.TcCoe Idealize.SL.Sem Idealize.ShloMosaic.ValueIdx

namespace Cert.KernelIdeal.GcnValue

open Cert.KernelIdeal Cert.KernelIdeal.Gen

variable {F : FTy → Type} [FloatOps F]
variable (m : (ℓ : Loc nD τ sig) → Buf (Elt F) ℓ)

/-- The five index maps at grid point t: x, W and the bias row stay at block (0, 0); the adjacency and the output
    are at block (t, 0). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The x block at any point is the array x as the kernel finds it. -/
theorem blk_x (c : Dev nD) (t : Fin cfg0.N) : (iblk m c 0 t : Vec F S4096x256 .f32) = V m c main_arg0 := by
  funext j
  unfold iblk
  rw [View.read_apply]
  show V m c main_arg0 _ = V m c main_arg0 j
  refine congrArg (V m c main_arg0) (funext fun a => Fin.ext ?_)
  obtain ⟨e0, e1, -⟩ := idx_facts t
  match a with
  | ⟨0, _⟩ => show win0_0.index t (0 : Fin 2) * 4096 + 1 * (j 0).val = (j 0).val; rw [e0]; omega
  | ⟨1, _⟩ => show win0_0.index t (1 : Fin 2) * 256 + 1 * (j 1).val = (j 1).val; rw [e1]; omega

/-- The W block at any point is the array W as the kernel finds it. -/
theorem blk_w (c : Dev nD) (t : Fin cfg0.N) : (iblk m c 1 t : Vec F S256x128 .f32) = V m c main_arg2 := by
  funext j
  unfold iblk
  rw [View.read_apply]
  show V m c main_arg2 _ = V m c main_arg2 j
  refine congrArg (V m c main_arg2) (funext fun a => Fin.ext ?_)
  obtain ⟨-, -, e0, e1, -⟩ := idx_facts t
  match a with
  | ⟨0, _⟩ => show win0_1.index t (0 : Fin 2) * 256 + 1 * (j 0).val = (j 0).val; rw [e0]; omega
  | ⟨1, _⟩ => show win0_1.index t (1 : Fin 2) * 128 + 1 * (j 1).val = (j 1).val; rw [e1]; omega

/-- The bias block at any point is the one-row bias array as the kernel finds it. -/
theorem blk_bias (c : Dev nD) (t : Fin cfg0.N) : (iblk m c 3 t : Vec F S1x128 .f32) = V m c main_v0 := by
  funext j
  unfold iblk
  rw [View.read_apply]
  show V m c main_v0 _ = V m c main_v0 j
  refine congrArg (V m c main_v0) (funext fun a => Fin.ext ?_)
  obtain ⟨-, -, -, -, -, -, e0, e1, -⟩ := idx_facts t
  match a with
  | ⟨0, _⟩ => show win0_3.index t (0 : Fin 2) * 1 + 1 * (j 0).val = (j 0).val; rw [e0]; omega
  | ⟨1, _⟩ => show win0_3.index t (1 : Fin 2) * 128 + 1 * (j 1).val = (j 1).val; rw [e1]; omega

/-- Row r of point t's adjacency block is row 512 · t + r of the adjacency, column for column. -/
theorem blk_adj (c : Dev nD) (t : Fin cfg0.N) (r : Fin 512) (k : Fin 4096) (hp : t.val * 512 + r.val < 4096) :
    (iblk m c 2 t : Vec F S512x4096 .f32) (ix2 r k) = V m c main_arg1 (ix2 (⟨t.val * 512 + r.val, hp⟩ : Fin 4096) k) := by
  unfold iblk
  rw [View.read_apply]
  show V m c main_arg1 _ = V m c main_arg1 _
  refine congrArg (V m c main_arg1) (funext fun a => Fin.ext ?_)
  obtain ⟨-, -, -, -, e0, e1, -⟩ := idx_facts t
  match a with
  | ⟨0, _⟩ => show win0_2.index t (0 : Fin 2) * 512 + 1 * r.val = t.val * 512 + r.val; rw [e0]; omega
  | ⟨1, _⟩ => show win0_2.index t (1 : Fin 2) * 4096 + 1 * k.val = k.val; rw [e1]; omega

/-- Entry (r, q) of point t's output block is entry (512 · t + r, q) of the output array. -/
theorem out_emb (t : Fin cfg0.N) (r : Fin 512) (q : Fin 128) (hp : t.val * 512 + r.val < 4096) :
    ((cfg0.win 4).blk t).view.emb (ix2 r q) = (ix2 (⟨t.val * 512 + r.val, hp⟩ : Fin 4096) q : S4096x128.Idx) := by
  refine funext fun a => Fin.ext ?_
  obtain ⟨-, -, -, -, -, -, -, -, e0, e1⟩ := idx_facts t
  match a with
  | ⟨0, _⟩ => show win0_4.index t (0 : Fin 2) * 512 + 1 * r.val = t.val * 512 + r.val; rw [e0]; omega
  | ⟨1, _⟩ => show win0_4.index t (1 : Fin 2) * 128 + 1 * q.val = q.val; rw [e1]; omega

end Cert.KernelIdeal.GcnValue
end
-- ==== Proof.KernelCarried.lean ====
/-
  The matrix the graph-convolution kernel carries from one grid point to the next, and what every point writes back.

  The first point stores the product of the x block by the W block in the carried buffer; a later point
  stores nothing there.  By induction on the point the buffer therefore holds that one product after every
  point, and what point t writes back is, at the first point and at the later ones alike, the product of
  t's block of the adjacency by that matrix, plus the broadcast bias row.
-/
import proofs.«131383_g2000703821448203_pallasbulk_153_16_alg».proof.Proof.KernelPieces
import proofs.«131383_g2000703821448203_pallasbulk_153_16_alg».proof.Proof.KernelBlocks

noncomputable section

open Idealize.ShloMosaic Idealize.ShloMosaic.TcCoe Idealize.SL.Sem
open Idealize.ShloMosaic.Pipeline (Dat)

namespace Cert.KernelIdeal.GcnValue

open Cert.KernelIdeal Cert.KernelIdeal.Gen

variable {F : FTy → Type} [FloatOps F]
variable (m : (ℓ : Loc nD τ sig) → Buf (Elt F) ℓ)

/-- The support matrix as the kernel holds it: the product of the arrays x and W. -/
def held (c : Dev nD) : Vec F S4096x128 .f32 :=
  k0_pay1 (m ((c : Thread nD τ).loc main_arg0)) (m ((c : Thread nD τ).loc main_arg2))

/-- At the first point the carried buffer ends holding that matrix: the point stores the product of its x block and
    its W block, which are the whole arrays. -/
theorem scratch_first (c : Dev nD) (t : Fin cfg0.N) (h0 : t.val % 8 = 0) :
    (outsAt0 m c t.val t.isLt).2 = held m c := by
  rw [outsAt0_A m c t h0]
  dsimp only
  rw [scratch_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t),
    blk_x, blk_w, V_main_arg0, V_main_arg2]
  rfl

/-- A later point leaves the carried buffer as the point before left it. -/
theorem scratch_later (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl

/-- So after EVERY point the carried buffer holds that matrix (induction on the point). -/
theorem scratch_eq (c : Dev nD) : ∀ (n : ℕ) (hn : n < cfg0.N), (outsAt0 m c n hn).2 = held m c := by
  intro n
  induction n using Nat.strong_induction_on with
  | _ n ih =>
    intro hn
    by_cases h0 : n % 8 = 0
    · exact scratch_first m c ⟨n, hn⟩ h0
    · exact (scratch_later m c ⟨n, hn⟩ h0).trans (ih (n - 1) (by omega) _)

/-- WHAT POINT t WRITES BACK: its adjacency block times the held support matrix, plus the bias row — at the first
    point and at the later ones alike. -/
theorem flushed_pay (c : Dev nD) (t : Fin cfg0.N) :
    (dats m 0 c).flushed 4 t
      = (cfg0.win 4).cut (grid0.coords t) (k0_pay2 (iblk m c 2 t) (held m c) (iblk m c 3 t)) := by
  by_cases h0 : t.val % 8 = 0
  · rw [Value.flushed4_A m c t h0,
      out_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t),
      blk_x, blk_w, V_main_arg0, V_main_arg2]
    rfl
  · rw [Value.flushed4_B m c t h0,
      out_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t)
        (outsAt0 m c (t.val - 1) (Nat.lt_of_le_of_lt (Nat.sub_le _ _) t.isLt)).2,
      scratch_eq]

end Cert.KernelIdeal.GcnValue
end
-- ==== Proof.LibDense.lean ====
/-
  General facts, at the exact instance (floats as extended reals), about the operations a dense layer and a row softmax
  are made of, each read at an index written by its coordinates:
  a matrix product into a zero accumulator is the sum over the contracted axis of the products of the row's and the
  column's entries; a vector cast to one row and broadcast down the rows is the vector at the column; a vector cast
  to one column and broadcast along the rows is the vector at the row; a sum and a maximum over the second axis of a
  matrix are the sum and the maximum of the row's entries.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibDense

open Idealize.ShloMosaic Idealize.ShloMosaic.ValueIdx

variable {α : Type} {M K N : Nat}

/-- A matrix product of an [M, K] by a [K, N] matrix into the zero accumulator, read at (p, q): the sum over the
    contracted coordinate k of x(p, k) · w(k, q). The four hypotheses say which operand coordinate each of the
    product's index maps takes from the output index and which from the contraction index. -/
theorem matmul_zero_rc {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    matmul D prec x w (constant ⟨2, ![M, N]⟩ .f32 0x00000000#32) (ix2 p q) = ∑ k : Fin K, x (ix2 p k) * w (ix2 k q) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- An [N] vector cast to one row [1, N] and broadcast to [M, N] reads, at (p, q), the vector at q. -/
theorem rowBroadcast_rc (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- An [M] vector cast to one column [M, 1] reads, at (p, u), the vector at p. -/
theorem shapeCast_a_a1_apply (v : (⟨1, ![M]⟩ : Shape).Idx → α) (h : (⟨1, ![M]⟩ : Shape).ShapeCasts ⟨2, ![M, 1]⟩)
    (p : Fin M) (u : Fin 1) : shapeCast ⟨2, ![M, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An [M, 1] column cast to the [M] vector reads, at p, the column at (p, 0). -/
theorem shapeCast_a1_a_apply (v : (⟨2, ![M, 1]⟩ : Shape).Idx → α) (h : (⟨2, ![M, 1]⟩ : Shape).ShapeCasts ⟨1, ![M]⟩)
    (p : Fin M) : shapeCast ⟨1, ![M]⟩ v h (ix1 p) = v (ix2 p (0 : Fin 1)) :=
  shapeCast_apply v h _ _ (by
    rw [Shape.rowMajor_val_two, Shape.rowMajor_val_one]
    show p.val * 1 + 0 = p.val
    omega)

/-- An [M, 1] column broadcast along the rows to [M, N] reads, at (p, q), the column at (p, 0). -/
theorem broadcastTo_a1_ab_apply (v : (⟨2, ![M, 1]⟩ : Shape).Idx → α) (h : (⟨2, ![M, 1]⟩ : Shape).Broadcasts ⟨2, ![M, N]⟩)
    (p : Fin M) (q : Fin N) : broadcastTo ⟨2, ![M, N]⟩ v h (ix2 p q) = v (ix2 p (0 : Fin 1)) := by
  refine broadcastTo_apply v h (ix2 p q) (ix2 p (0 : Fin 1)) fun ax => ?_
  match ax with
  | ⟨0, _⟩ =>
    show p.val = if M = 1 then 0 else p.val
    split
    · have := p.isLt; omega
    · rfl
  | ⟨1, _⟩ => rfl

/-- An [M] vector cast to one column and broadcast along the rows to [M, N] reads, at (p, q), the vector at p. -/
theorem colBroadcast_rc (v : (⟨1, ![M]⟩ : Shape).Idx → α) (h1 : (⟨1, ![M]⟩ : Shape).ShapeCasts ⟨2, ![M, 1]⟩)
    (h2 : (⟨2, ![M, 1]⟩ : Shape).Broadcasts ⟨2, ![M, N]⟩) (p : Fin M) (q : Fin N) :
    broadcastTo ⟨2, ![M, N]⟩ (shapeCast ⟨2, ![M, 1]⟩ v h1) h2 (ix2 p q) = v (ix1 p) :=
  (broadcastTo_a1_ab_apply _ h2 p q).trans (shapeCast_a_a1_apply v h1 p 0)

/-- The index of an [M, N] matrix that drops to p when the second axis is reduced, with k put on that axis, is (p, k). -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The sum over the second axis of an [M, N] matrix, read at row p: the sum of the row's entries. -/
theorem rowSum_apply (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) := by
  refine (Ideal.multiReduction_add_single src 0x00000000#32 h hφ hacc (ix1 p)).trans ?_
  exact Finset.sum_congr rfl fun k _ => congrArg src (lift_row h p k)

/-- The maximum over the second axis of an [M, N] matrix, read at row p: the fold of max, from minus infinity's
    pattern, over the row's entries. -/
theorem rowMax_apply (src : FVec Ideal ⟨2, ![M, N]⟩ .f32) (h : (⟨2, ![M, N]⟩ : Shape).Reduces [1] ⟨1, ![M]⟩)
    (hφ : FKind.Formats .f32) (hacc : (0xFF800000#32 : BitVec 32) = 0xFF800000#32) (p : Fin M) :
    multiReduction .maximumf [1] ⟨1, ![M]⟩ src 0xFF800000#32 h hφ hacc (ix1 p)
      = (Finset.univ : Finset (Fin N)).fold max (Ideal.ofBits .f32 0xFF800000#32) (fun k => src (ix2 p k)) := by
  refine (Ideal.multiReduction_maximumf_single src 0xFF800000#32 h hφ hacc (ix1 p)).trans ?_
  have e : (src ∘ h.lift (ix1 p)) = fun k => src (ix2 p k) := funext fun k => congrArg src (lift_row h p k)
  rw [e]
  rfl

/-- The host's reduction by maximum over the second axis of an [M, N] matrix, read at row p: the same fold, from the
    initial value's one element. -/
theorem hostRowMax_apply {u : Shape} (x : (⟨2, ![M, N]⟩ : Shape).Idx → EReal) (init : u.Idx → EReal)
    (h' : (⟨2, ![M, N]⟩ : Shape).ReducesTo [1] ⟨1, ![M]⟩) (h : (⟨2, ![M, N]⟩ : Shape).Reduces [1] ⟨1, ![M]⟩)
    (hu : 0 < u.numel) (p : Fin M) :
    Host.reduce (FloatOps.maximumf (F := Ideal) (φ := .f32)) x init h' hu (ix1 p)
      = (Finset.univ : Finset (Fin N)).fold max (init (Shape.Idx.first hu)) (fun k => x (ix2 p k)) := by
  refine (Host.reduce_eq_fold_single _ x init h' h hu (ix1 p)).trans ?_
  have e : (x ∘ h.lift (ix1 p)) = fun k => x (ix2 p k) := funext fun k => congrArg x (lift_row h p k)
  rw [e]
  rfl

/-! ## What a dense layer and a row softmax compute -/

/-- The f32 zero word's value (the rectifier's threshold and the sums' initial value). -/
abbrev zeroWord : EReal := Ideal.ofBits .f32 0x00000000#32

/-- Minus infinity's f32 word's value (the maximum's initial value). -/
abbrev negInfWord : EReal := Ideal.ofBits .f32 0xFF800000#32

/-- An affine map's entry: at (r, j), the sum over k of x(r, k) · w(k, j), plus b(j). -/
def affine (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => ∑ k : Fin K, x (ix2 (n0 := M) (n1 := K) ⟨(i 0).val, (i 0).isLt⟩ k) * w (ix2 (n0 := K) (n1 := N) k ⟨(i 1).val, (i 1).isLt⟩)
    + b (ix1 (n := N) ⟨(i 1).val, (i 1).isLt⟩)

theorem affine_apply (x : (⟨2, ![M, K]⟩ : Shape).Idx → EReal) (w : (⟨2, ![K, N]⟩ : Shape).Idx → EReal)
    (b : (⟨1, ![N]⟩ : Shape).Idx → EReal) (p : Fin M) (q : Fin N) :
    affine x w b (ix2 p q) = ∑ k : Fin K, x (ix2 p k) * w (ix2 k q) + b (ix1 q) := rfl

/-- One dense layer with the rectifier: the affine map's entry or the zero word's value, whichever is larger. -/
def layer (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => max (affine x w b i) zeroWord

theorem layer_apply (x : (⟨2, ![M, K]⟩ : Shape).Idx → EReal) (w : (⟨2, ![K, N]⟩ : Shape).Idx → EReal)
    (b : (⟨1, ![N]⟩ : Shape).Idx → EReal) (p : Fin M) (q : Fin N) :
    layer x w b (ix2 p q) = max (∑ k : Fin K, x (ix2 p k) * w (ix2 k q) + b (ix1 q)) zeroWord := rfl

/-- A row's largest logit as both programs take it: the fold of max from minus infinity's word over the row, once more
    against that word. -/
def rowTop (l : Fin N → EReal) : EReal := max negInfWord ((Finset.univ : Finset (Fin N)).fold max negInfWord l)

/-- A softmax row as both programs compute it: each logit less the row's largest, exponentiated, over the sum of those
    exponentials (the exact quotient of extended reals). -/
def softmaxRow (l : Fin N → EReal) (v : Fin N) : EReal :=
  Ideal.div (Ideal.exp (l v - rowTop l)) (∑ u : Fin N, Ideal.exp (l u - rowTop l))

end Cert.LibDense

end
-- ==== Proof.KernelEntry.lean ====
/-
  The two matrix products of the graph-convolution kernel read entry by entry, floats as extended reals.

  The value the first grid point stores in the carried buffer is the product of a 4096 × 256 block by a
  256 × 128 block into a zero accumulator: its entry (p, q) is the sum over the 256 input features f of
  x (p, f) · w (f, q).  The value every point stores in its output block is the product of a 512 × 4096
  block by a 4096 × 128 matrix into a zero accumulator, plus a one-row block broadcast down the 512 rows:
  its entry (r, q) is the sum over the 4096 nodes k of a (r, k) · s (k, q), plus the row's entry b (0, q).
  Only the definition of a product into zero and of a broadcast are used: no law of the arithmetic.
-/
import proofs.«131383_g2000703821448203_pallasbulk_153_16_alg».proof.Proof.Gen.KernelIdeal.Skeleton
import proofs.«131383_g2000703821448203_pallasbulk_153_16_alg».proof.Proof.LibDense

noncomputable section

open Idealize.ShloMosaic Idealize.ShloMosaic.ValueIdx
open scoped BigOperators

namespace Cert.KernelIdeal.GcnValue

open Cert.KernelIdeal Cert.KernelIdeal.Gen

/-- The first product's index maps: the left operand takes its row from the output index and its column from the
    contraction index, the right operand its row from the contraction index and its column from the output index. -/
theorem dot1_l0 (i : S4096x128.Idx) (k : dot_S4096x256_S256x128_S4096x128_1_0_0_1_n_n.contr.Idx) : (dot_S4096x256_S256x128_S4096x128_1_0_0_1_n_n.lhsIdx i k 0).val = (i 0).val := by
  simp [DotDims.lhsIdx, dot_S4096x256_S256x128_S4096x128_1_0_0_1_n_n]; rfl
theorem dot1_r1 (i : S4096x128.Idx) (k : dot_S4096x256_S256x128_S4096x128_1_0_0_1_n_n.contr.Idx) : (dot_S4096x256_S256x128_S4096x128_1_0_0_1_n_n.rhsIdx i k 1).val = (i 1).val := by
  simp [DotDims.rhsIdx, dot_S4096x256_S256x128_S4096x128_1_0_0_1_n_n]; rfl

/-- The second product's index maps, likewise. -/
theorem dot2_l0 (i : S512x128.Idx) (k : dot_S512x4096_S4096x128_S512x128_1_0_0_1_n_n.contr.Idx) : (dot_S512x4096_S4096x128_S512x128_1_0_0_1_n_n.lhsIdx i k 0).val = (i 0).val := by
  simp [DotDims.lhsIdx, dot_S512x4096_S4096x128_S512x128_1_0_0_1_n_n]; rfl
theorem dot2_r1 (i : S512x128.Idx) (k : dot_S512x4096_S4096x128_S512x128_1_0_0_1_n_n.contr.Idx) : (dot_S512x4096_S4096x128_S512x128_1_0_0_1_n_n.rhsIdx i k 1).val = (i 1).val := by
  simp [DotDims.rhsIdx, dot_S512x4096_S4096x128_S512x128_1_0_0_1_n_n]; rfl

/-- The stored support matrix at (p, q): the sum over the input features f of x (p, f) · w (f, q). -/
theorem pay1_apply (x : Vec Ideal S4096x256 .f32) (w : Vec Ideal S256x128 .f32) (p : Fin 4096) (q : Fin 128) :
    k0_pay1 x w (ix2 p q) = ∑ f : Fin 256, x (ix2 p f) * w (ix2 f q) := by
  show shapeCast S4096x128 (matmul (F := Ideal) dot_S4096x256_S256x128_S4096x128_1_0_0_1_n_n none x w (constant (F := Ideal) S4096x128 .f32 0x00000000#32))
    Facts₀.shapeCasts_S4096x128_S4096x128 (ix2 p q) = _
  rw [shapeCast_self]
  exact Cert.LibDense.matmul_zero_rc dot_S4096x256_S256x128_S4096x128_1_0_0_1_n_n rfl rfl dot1_l0
    (fun i k => dot_S4096x256_S256x128_S4096x128_1_0_0_1_n_n.lhsIdx_val_of_single (cl := 1) rfl i k)
    (fun i k => dot_S4096x256_S256x128_S4096x128_1_0_0_1_n_n.rhsIdx_val_of_single (cr := 0) rfl i k) dot1_r1 none x w p q

/-- The stored output block at (r, q): the sum over the nodes k of a (r, k) · s (k, q), plus the bias row at q. -/
theorem pay2_apply (a : Vec Ideal S512x4096 .f32) (s : Vec Ideal S4096x128 .f32) (b : Vec Ideal S1x128 .f32)
    (r : Fin 512) (q : Fin 128) :
    k0_pay2 a s b (ix2 r q) = (∑ k : Fin 4096, a (ix2 r k) * s (ix2 k q)) + b (ix2 (0 : Fin 1) q) := by
  show matmul (F := Ideal) dot_S512x4096_S4096x128_S512x128_1_0_0_1_n_n none a s (constant (F := Ideal) S512x128 .f32 0x00000000#32) (ix2 r q)
      + broadcastTo S512x128 (shapeCast S1x128 b Facts₀.shapeCasts_S1x128_S1x128) Facts₀.broadcasts_S1x128_S512x128 (ix2 r q) = _
  rw [shapeCast_self, broadcastTo_1b_ab_apply]
  exact congrArg (· + b (ix2 (0 : Fin 1) q)) (Cert.LibDense.matmul_zero_rc dot_S512x4096_S4096x128_S512x128_1_0_0_1_n_n rfl rfl dot2_l0
    (fun i k => dot_S512x4096_S4096x128_S512x128_1_0_0_1_n_n.lhsIdx_val_of_single (cl := 1) rfl i k)
    (fun i k => dot_S512x4096_S4096x128_S512x128_1_0_0_1_n_n.rhsIdx_val_of_single (cr := 0) rfl i k) dot2_r1 none a s r q)

end Cert.KernelIdeal.GcnValue
end
-- ==== Proof.LibRealEntries.lean ====
import Idealize.ShloMosaic.PureOps.Ideal
import Idealize.ShloMosaic.PureOps.Ideal.Laws
import Idealize.ShloMosaic.PureOps.Contract
import Idealize.ShloMosaic.PureOps.ShapeOps
import Idealize.ShloMosaic.PureOps.Vector
import Mathlib.Tactic

/-!
# Real entries are preserved by the host operations

An extended real is *real* when it is the coercion of a real number, that is, neither `⊤` nor
`⊥`. This file shows that the arithmetic of the extended reals keeps real values real (sums,
differences, products, finite sums, quotients by a nonzero real, reciprocal square roots of a
positive real), and lifts this, entry by entry, to vectors: each host operation whose result
entries are entries of its operands (re-indexings: gather, broadcast, reshape, concatenation,
slicing, selection), or sums and products of them (scatter-add, reduction, contraction,
entrywise arithmetic), sends vectors with real entries to a vector with real entries.
-/

noncomputable section

namespace Cert.Lib.RealEntries

open Idealize.ShloMosaic
open scoped BigOperators

/-- An extended real is real: the coercion of a real number. -/
def IsR (x : EReal) : Prop := ∃ r : ℝ, x = (r : EReal)

/-- Every entry of a vector of extended reals is real. -/
def AllR {S : Shape} (v : S.Idx → EReal) : Prop := ∀ i, IsR (v i)

/-! ### Scalars -/

theorem isR_coe (r : ℝ) : IsR (r : EReal) := ⟨r, rfl⟩

theorem isR_zero : IsR 0 := ⟨0, EReal.coe_zero.symm⟩

theorem isR_one : IsR 1 := ⟨1, EReal.coe_one.symm⟩

/-- A real value is neither infinity. -/
theorem IsR.ne_top {x : EReal} (hx : IsR x) : x ≠ ⊤ := by
  obtain ⟨a, rfl⟩ := hx; exact EReal.coe_ne_top a

theorem IsR.ne_bot {x : EReal} (hx : IsR x) : x ≠ ⊥ := by
  obtain ⟨a, rfl⟩ := hx; exact EReal.coe_ne_bot a

/-- An extended real that is neither infinity is real. -/
theorem isR_of_ne {x : EReal} (ht : x ≠ ⊤) (hb : x ≠ ⊥) : IsR x :=
  ⟨x.toReal, (EReal.coe_toReal ht hb).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.neg {x : EReal} (hx : IsR x) : IsR (-x) := by
  obtain ⟨a, rfl⟩ := hx; exact ⟨-a, (EReal.coe_neg a).symm⟩

/-- A finite sum of real values is real. -/
theorem isR_sum {ι : Type*} (s : Finset ι) (f : ι → EReal) (h : ∀ i ∈ s, IsR (f i)) :
    IsR (∑ i ∈ s, f i) := by
  classical
  induction s using Finset.induction_on with
  | empty => rw [Finset.sum_empty]; exact isR_zero
  | insert a s ha ih =>
    rw [Finset.sum_insert ha]
    exact (h a (Finset.mem_insert_self a s)).add (ih (fun i hi => h i (Finset.mem_insert_of_mem hi)))

/-- A real value divided by a nonzero real number is real. -/
theorem isR_div {x : EReal} (hx : IsR x) {y : ℝ} (hy : y ≠ 0) : IsR (Ideal.div x (y : EReal)) := by
  rw [Ideal.div_coe hy]; exact hx.mul (isR_coe _)

/-- The reciprocal square root of a positive real number is real. -/
theorem isR_rsqrt {r : ℝ} (hr : 0 < r) : IsR (Ideal.rsqrt (r : EReal)) := by
  rw [Ideal.rsqrt_coe, if_neg (not_lt.2 hr.le), if_neg hr.ne']; exact isR_coe _

/-- A choice between two real values is real. -/
theorem isR_ite {c : Prop} [Decidable c] {x y : EReal} (hx : IsR x) (hy : IsR y) :
    IsR (if c then x else y) := by
  split
  · exact hx
  · exact hy

/-! ### Words -/

/-- The single-precision word `0x47C35000` denotes `100000 = (2²³ + 4411392) · 2⁻⁷`. -/
theorem ofBits_47C35000 : Ideal.ofBits .f32 0x47C35000#32 = ((100000 : ℝ) : EReal) := by
  simp [Ideal.ofBits, Ideal.ieee]
  rw [← EReal.coe_mul]
  norm_num

/-- The single-precision word `0x3F800000` denotes `1 = 2²³ · 2⁻²³`. -/
theorem ofBits_3F800000 : Ideal.ofBits .f32 0x3F800000#32 = 1 := by
  simp [Ideal.ofBits, Ideal.ieee]
  rw [← EReal.coe_mul, ← EReal.coe_one]
  norm_num

/-- The single-precision word `0x3727C5AC` denotes a positive real number,
    `(2²³ + 2606508) · 2⁻⁴⁰`. -/
theorem ofBits_3727C5AC : ∃ e : ℝ, 0 < e ∧ Ideal.ofBits .f32 0x3727C5AC#32 = (e : EReal) := by
  refine ⟨10995116 * (2 ^ 40)⁻¹, by positivity, ?_⟩
  simp [Ideal.ofBits, Ideal.ieee]

/-- The words above, and the zero word, denote real numbers. -/
theorem isR_ofBits_00000000 : IsR (Ideal.ofBits .f32 0x00000000#32) := by
  rw [Ideal.ofBits_zero_f32]; exact isR_zero

theorem isR_ofBits_47C35000 : IsR (Ideal.ofBits .f32 0x47C35000#32) := ⟨_, ofBits_47C35000⟩

theorem isR_ofBits_3F800000 : IsR (Ideal.ofBits .f32 0x3F800000#32) := by
  rw [ofBits_3F800000]; exact isR_one

theorem isR_ofBits_3727C5AC : IsR (Ideal.ofBits .f32 0x3727C5AC#32) := by
  obtain ⟨e, _, h⟩ := ofBits_3727C5AC; exact ⟨e, h⟩

/-! ### Vectors

Each statement is at the extended-real instance, for arbitrary shapes and dimension records. -/

/-- `gather` re-indexes its operand: every result entry is an operand entry. -/
theorem allR_gather {s si t : Shape} {w : Nat} (d : GatherDims s si t) (x : s.Idx → EReal)
    (idx : IVec si w) (hx : AllR x) : AllR (Host.gather d x idx) :=
  fun j => hx (d.operandIdx j idx)

/-- `scatter-add`: every result entry is an operand entry plus a finite sum of update entries. -/
theorem allR_scatterAdd {s si u : Shape} {φ : FTy} {w : Nat} (d : ScatterDims s si u)
    (x : FVec Ideal s φ) (idx : IVec si w) (upd : FVec Ideal u φ) (hx : AllR x) (hu : AllR upd) :
    AllR (Host.scatterAdd (F := Ideal) d x idx upd) := by
  intro i
  show IsR (x i + ∑ j ∈ Finset.univ.filter (fun j => d.resultIdx? j idx = some i), upd j)
  exact (hx i).add (isR_sum _ _ (fun j _ => hu j))

/-- The host sum over axes: every result entry is the initial value plus a finite sum of operand
    entries. -/
theorem allR_reduceAdd {s t u : Shape} {φ : FTy} {axes : List (Fin s.rank)} (x : FVec Ideal s φ)
    (init : u.Idx → Ideal φ) (h : s.ReducesTo axes t) (hu : 0 < u.numel) (hx : AllR x)
    (hi : IsR (init (Shape.Idx.first hu))) : AllR (Host.reduceAdd (F := Ideal) x init h hu) := by
  intro j
  show IsR (init (Shape.Idx.first hu) + ∑ i ∈ Finset.univ.filter (fun i => h.drop i = j), x i)
  exact hi.add (isR_sum _ _ (fun i _ => hx i))

/-- The host sum over axes, with every entry of the initial value real. -/
theorem allR_reduceAdd' {s t u : Shape} {φ : FTy} {axes : List (Fin s.rank)} (x : FVec Ideal s φ)
    (init : u.Idx → Ideal φ) (h : s.ReducesTo axes t) (hu : 0 < u.numel) (hx : AllR x)
    (hi : AllR init) : AllR (Host.reduceAdd (F := Ideal) x init h hu) :=
  allR_reduceAdd x init h hu hx (hi _)

/-- The host contraction: every result entry is a finite sum of products of operand entries. -/
theorem allR_dotGeneral {sl sr so : Shape} {φ₁ φ₂ : FTy} (D : DotDims sl sr so)
    (prec : Option ContractPrecision) (x : FVec Ideal sl φ₁) (w : FVec Ideal sr φ₂)
    (hx : AllR x) (hw : AllR w) : AllR (Host.dotGeneral (F := Ideal) D prec x w) := by
  intro j
  show IsR (FloatOps.dotGeneral D prec .single x w j)
  rw [Ideal.dotGeneral_apply]
  exact isR_sum _ _ (fun k _ => (hx _).mul (hw _))

theorem allR_mulf {S : Shape} {φ : FTy} (x y : FVec Ideal S φ) (hx : AllR x) (hy : AllR y) :
    AllR (mulf (F := Ideal) x y) :=
  fun i => (hx i).mul (hy i)

theorem allR_addf {S : Shape} {φ : FTy} (x y : FVec Ideal S φ) (hx : AllR x) (hy : AllR y) :
    AllR (addf (F := Ideal) x y) :=
  fun i => (hx i).add (hy i)

theorem allR_subf {S : Shape} {φ : FTy} (x y : FVec Ideal S φ) (hx : AllR x) (hy : AllR y) :
    AllR (subf (F := Ideal) x y) :=
  fun i => (hx i).sub (hy i)

theorem allR_negf {S : Shape} {φ : FTy} (x : FVec Ideal S φ) (hx : AllR x) :
    AllR (negf (F := Ideal) x) :=
  fun i => (hx i).neg

/-- A selection between two vectors with real entries has real entries, whatever the mask. -/
theorem allR_select {S : Shape} (c : IVec S 1) (x y : S.Idx → EReal) (hx : AllR x) (hy : AllR y) :
    AllR (select c x y) := by
  intro i
  show IsR (if c i = 1 then x i else y i)
  exact isR_ite (hx i) (hy i)

/-- `broadcast_in_dim` re-indexes its operand. -/
theorem allR_broadcastInDim {s : Shape} (t : Shape) (dims : Fin s.rank → Fin t.rank)
    (h : s.BroadcastsInDim t dims) (x : s.Idx → EReal) (hx : AllR x) :
    AllR (broadcastInDim t dims h x) :=
  fun _ => hx _

/-- A broadcast of a vector along leading axes re-indexes its operand. -/
theorem allR_broadcastTo {s : Shape} (t : Shape) (x : s.Idx → EReal) (h : s.Broadcasts t)
    (hx : AllR x) : AllR (broadcastTo t x h) :=
  fun _ => hx _

/-- A broadcast of a real scalar has real entries. -/
theorem allR_broadcast (t : Shape) (x : EReal) (hx : IsR x) : AllR (broadcast t x) :=
  fun _ => hx

/-- A reshape re-indexes its operand. -/
theorem allR_shapeCast {s : Shape} (t : Shape) (x : s.Idx → EReal) (h : s.ShapeCasts t)
    (hx : AllR x) : AllR (shapeCast t x h) :=
  fun _ => hx _

/-- A slice re-indexes its operand. -/
theorem allR_extractStridedSlice {s : Shape} (t : Shape) (off : Fin s.rank → Nat)
    (x : s.Idx → EReal) (h : s.Slices off t) (hx : AllR x) :
    AllR (extractStridedSlice t off x h) :=
  fun _ => hx _

/-- A strided slice re-indexes its operand. -/
theorem allR_hostSlice {s : Shape} (t : Shape) (start strides : Fin s.rank → Nat)
    (x : s.Idx → EReal) (h : s.SlicesBy start strides t) (hx : AllR x) :
    AllR (Host.slice t start strides x h) :=
  fun _ => hx _

/-- A transposition re-indexes its operand. -/
theorem allR_transpose {s : Shape} (t : Shape) (perm : List (Fin s.rank)) (x : s.Idx → EReal)
    (h : s.Transposes perm t) (hx : AllR x) : AllR (transpose t perm x h) :=
  fun _ => hx _

/-- A concatenation of vectors with real entries has real entries: every result entry is an
    entry of one of the pieces. -/
theorem allR_concatenate_list (t : Shape) (a : Fin t.rank)
    (xs : List ((s : Shape) × (s.Idx → EReal))) (h : Shape.Concatenates (xs.map (·.1)) t a)
    (hxs : ∀ p ∈ xs, AllR p.2) : AllR (concatenate t a xs h) := by
  intro j
  unfold concatenate
  exact hxs _ (List.getElem_mem _) _

/-- A concatenation of two vectors with real entries has real entries. -/
theorem allR_concatenate {s₁ s₂ : Shape} (t : Shape) (a : Fin t.rank) (x₁ : s₁.Idx → EReal)
    (x₂ : s₂.Idx → EReal)
    (h : Shape.Concatenates
      (([⟨s₁, x₁⟩, ⟨s₂, x₂⟩] : List ((s : Shape) × (s.Idx → EReal))).map (·.1)) t a)
    (h₁ : AllR x₁) (h₂ : AllR x₂) :
    AllR (concatenate t a [⟨s₁, x₁⟩, ⟨s₂, x₂⟩] h) := by
  apply allR_concatenate_list
  intro p hp
  simp only [List.mem_cons, List.not_mem_nil, or_false] at hp
  rcases hp with rfl | rfl
  · exact h₁
  · exact h₂

/-- The entrywise host quotient of a vector with real entries by a vector whose entries are
    nonzero real numbers has real entries. -/
theorem allR_hostDivf {S : Shape} {φ : FTy} (x y : FVec Ideal S φ) (hx : AllR x)
    (hy : ∀ i, ∃ r : ℝ, r ≠ 0 ∧ y i = (r : EReal)) : AllR (Host.divf (F := Ideal) x y) := by
  intro i
  obtain ⟨r, hr, hyi⟩ := hy i
  show IsR (Ideal.div (x i) (y i))
  rw [hyi]
  exact isR_div (hx i) hr

/-- The entrywise quotient, likewise. -/
theorem allR_divf {S : Shape} {φ : FTy} (x y : FVec Ideal S φ) (hx : AllR x)
    (hy : ∀ i, ∃ r : ℝ, r ≠ 0 ∧ y i = (r : EReal)) : AllR (divf (F := Ideal) x y) := by
  intro i
  obtain ⟨r, hr, hyi⟩ := hy i
  show IsR (Ideal.div (x i) (y i))
  rw [hyi]
  exact isR_div (hx i) hr

/-- The entrywise host reciprocal square root of a vector whose entries are positive real
    numbers has real entries. -/
theorem allR_hostRsqrt {S : Shape} {φ : FTy} (x : FVec Ideal S φ)
    (hx : ∀ i, ∃ r : ℝ, 0 < r ∧ x i = (r : EReal)) : AllR (Host.rsqrt (F := Ideal) x) := by
  intro i
  obtain ⟨r, hr, hxi⟩ := hx i
  show IsR (Ideal.rsqrt (x i))
  rw [hxi]
  exact isR_rsqrt hr

/-- The entrywise reciprocal square root, likewise. -/
theorem allR_rsqrt {S : Shape} {φ : FTy} (x : FVec Ideal S φ)
    (hx : ∀ i, ∃ r : ℝ, 0 < r ∧ x i = (r : EReal)) : AllR (rsqrt (F := Ideal) x) := by
  intro i
  obtain ⟨r, hr, hxi⟩ := hx i
  show IsR (Ideal.rsqrt (x i))
  rw [hxi]
  exact isR_rsqrt hr

/-- A constant vector whose word denotes a real number has real entries. -/
theorem allR_constant (S : Shape) (φ : FTy) (w : BitVec φ.bits) (h : IsR (Ideal.ofBits φ w)) :
    AllR (constant (F := Ideal) S φ w) :=
  fun _ => h

end Cert.Lib.RealEntries

end
-- ==== Proof.LibGatedMlp.lean ====
/-
  General facts, at the exact instance (floats as extended reals), for a gated feed-forward block whose hidden
  axis is cut into equal blocks, one per device:

  * a sum over an axis of `nB · H` entries is the sum over the `nB` blocks of the sums over each block's `H` entries
    (associativity and commutativity only: no finiteness);
  * at a real `u`, the quotient `u / (1 + e^(-u))` and the product `u · logistic u` are one number,
    `u · (1 + e^(-u))⁻¹` (the two spellings of `silu`);
  * hence the row-by-column entry `Σ_K gate_K · silu(up_K) · wd_K` of the whole block, `gate_K = Σ_i x_i · wg_{iK}`,
    `up_K = Σ_i x_i · wu_{iK}`, written with the quotient, is the sum over the blocks of the same entry of each block
    written with `logistic` — when `x` and `wu` have real entries, which makes every `up_K` real;
  * a balanced pairwise sum of thirty-two terms is their sum in order.
-/
import Idealize.ShloMosaic.PureOps.Ideal
import Idealize.ShloMosaic.PureOps.Ideal.Laws
import proofs.«131383_g2000703821448203_pallasbulk_153_16_alg».proof.Proof.LibRealEntries
import Mathlib.Tactic

noncomputable section

namespace Cert.Lib.GatedMlp

open Idealize.ShloMosaic Cert.Lib.RealEntries
open scoped BigOperators

/-- Entry `k` of block `q` of an axis of `nB` blocks of `H` entries each. -/
def blk {nB H : ℕ} (q : Fin nB) (k : Fin H) : Fin (nB * H) :=
  ⟨q.val * H + k.val, by
    calc q.val * H + k.val < q.val * H + H := Nat.add_lt_add_left k.isLt _
      _ = (q.val + 1) * H := (Nat.succ_mul _ _).symm
      _ ≤ nB * H := Nat.mul_le_mul_right _ q.isLt⟩

@[simp] theorem blk_val {nB H : ℕ} (q : Fin nB) (k : Fin H) : (blk q k).val = q.val * H + k.val := rfl

/-- A sum over `nB · H` entries, block by block. -/
theorem sum_blocks {M : Type*} [AddCommMonoid M] {nB H : ℕ} (f : Fin (nB * H) → M) :
    ∑ K, f K = ∑ q : Fin nB, ∑ k : Fin H, f (blk q k) := by
  rw [← Equiv.sum_comp finProdFinEquiv f, Fintype.sum_prod_type]
  refine Finset.sum_congr rfl fun q _ => Finset.sum_congr rfl fun k _ => congrArg f (Fin.ext ?_)
  show k.val + H * q.val = q.val * H + k.val
  rw [Nat.mul_comm, Nat.add_comm]

/-- The two spellings of `silu` at a real number. -/
theorem silu_real (u : ℝ) :
    Ideal.div (u : EReal) (1 + Ideal.exp (-(u : EReal))) = (u : EReal) * Ideal.logistic (u : EReal) := by
  have h : (1 : EReal) + Ideal.exp (-(u : EReal)) = ((1 + Real.exp (-u) : ℝ) : EReal) := by
    rw [← EReal.coe_neg, Ideal.exp_coe, EReal.coe_add, EReal.coe_one]
  have hpos : (1 + Real.exp (-u) : ℝ) ≠ 0 := ne_of_gt (by positivity)
  rw [h, Ideal.div_coe hpos, Ideal.logistic_coe, one_div]

/-- The same at an extended real known to be real. -/
theorem silu_isR {u : EReal} (hu : IsR u) : Ideal.div u (1 + Ideal.exp (-u)) = u * Ideal.logistic u := by
  obtain ⟨r, rfl⟩ := hu
  exact silu_real r

/-- One entry of the gated block over the whole hidden axis, spelt with the quotient, is the sum over the blocks of
    the block's entry spelt with `logistic`. -/
theorem gated_blocks {nB H : ℕ} {I : Type*} [Fintype I] (x : I → EReal) (wg wu : I → Fin (nB * H) → EReal)
    (wd : Fin (nB * H) → EReal) (hx : ∀ i, IsR (x i)) (hwu : ∀ i K, IsR (wu i K)) :
    ∑ K, ((∑ i, x i * wg i K) * Ideal.div (∑ i, x i * wu i K) (1 + Ideal.exp (-(∑ i, x i * wu i K)))) * wd K
      = ∑ q : Fin nB, ∑ k : Fin H,
          ((∑ i, x i * wg i (blk q k)) * ((∑ i, x i * wu i (blk q k)) * Ideal.logistic (∑ i, x i * wu i (blk q k))))
            * wd (blk q k) := by
  rw [sum_blocks]
  refine Finset.sum_congr rfl fun q _ => Finset.sum_congr rfl fun k _ => ?_
  rw [silu_isR (isR_sum _ _ fun i _ => (hx i).mul (hwu i _))]

/-- A balanced pairwise sum of thirty-two terms is their sum in order. -/
theorem tree32 {M : Type*} [AddCommMonoid M] (a : Fin 32 → M) :
    ((((a 0 + a 1) + (a 2 + a 3)) + ((a 4 + a 5) + (a 6 + a 7)))
        + (((a 8 + a 9) + (a 10 + a 11)) + ((a 12 + a 13) + (a 14 + a 15))))
      + ((((a 16 + a 17) + (a 18 + a 19)) + ((a 20 + a 21) + (a 22 + a 23)))
        + (((a 24 + a 25) + (a 26 + a 27)) + ((a 28 + a 29) + (a 30 + a 31))))
      = ∑ q, a q := by
  simp only [Fin.sum_univ_succ, Fin.sum_univ_zero, add_zero]
  simp only [add_assoc]
  rfl

end Cert.Lib.GatedMlp

end
-- ==== Proof.GcnSpec.lean ====
/-
  The graph-convolution layer as one function of its four argument arrays, index by index, on the
  extended reals:

      support x w (k, q) = ∑ f, x (k, f) · w (f, q)
      gcn x adj w b (p, q) = (∑ k, adj (p, k) · support x w (k, q)) + b q

  over 4096 nodes, 256 input features and 128 output features.  Both programs compute this function: one
  with the support matrix kept whole and one product per block of 512 rows of the adjacency; the other with
  the adjacency also cut into blocks of 512 columns, the eight partial products of a row block added one
  after the other onto a zero block and the bias added last.  The two arrangements differ only in how one
  finite sum is grouped (`sum_blocks512`, `chain_eq_sum`), which needs no finiteness of the entries.
-/
import Idealize.ShloMosaic.PureOps.Ideal
import Idealize.ShloMosaic.Lib.ValueIdx
import proofs.«131383_g2000703821448203_pallasbulk_153_16_alg».proof.Proof.LibGatedMlp

noncomputable section

namespace Cert.GcnSpec

open Idealize.ShloMosaic Idealize.ShloMosaic.ValueIdx
open scoped BigOperators

/-- The support matrix `x · w`: entry (k, q) is the sum over the input features f of x (k, f) · w (f, q). -/
def support (x : (⟨2, ![4096, 256]⟩ : Shape).Idx → EReal) (w : (⟨2, ![256, 128]⟩ : Shape).Idx → EReal) :
    (⟨2, ![4096, 128]⟩ : Shape).Idx → EReal :=
  fun i => ∑ f : Fin 256, x (ix2 (n0 := 4096) (n1 := 256) (i 0) f) * w (ix2 (n0 := 256) (n1 := 128) f (i 1))

theorem support_apply (x : (⟨2, ![4096, 256]⟩ : Shape).Idx → EReal) (w : (⟨2, ![256, 128]⟩ : Shape).Idx → EReal)
    (k : Fin 4096) (q : Fin 128) : support x w (ix2 k q) = ∑ f : Fin 256, x (ix2 k f) * w (ix2 f q) := rfl

/-- The layer: entry (p, q) is the sum over the nodes k of adj (p, k) · support (k, q), plus the bias at q. -/
def gcn (x : (⟨2, ![4096, 256]⟩ : Shape).Idx → EReal) (adj : (⟨2, ![4096, 4096]⟩ : Shape).Idx → EReal)
    (w : (⟨2, ![256, 128]⟩ : Shape).Idx → EReal) (b : (⟨1, ![128]⟩ : Shape).Idx → EReal) :
    (⟨2, ![4096, 128]⟩ : Shape).Idx → EReal :=
  fun i => (∑ k : Fin 4096, adj (ix2 (n0 := 4096) (n1 := 4096) (i 0) k) * support x w (ix2 (n0 := 4096) (n1 := 128) k (i 1)))
    + b (ix1 (n := 128) (i 1))

theorem gcn_apply (x : (⟨2, ![4096, 256]⟩ : Shape).Idx → EReal) (adj : (⟨2, ![4096, 4096]⟩ : Shape).Idx → EReal)
    (w : (⟨2, ![256, 128]⟩ : Shape).Idx → EReal) (b : (⟨1, ![128]⟩ : Shape).Idx → EReal) (p : Fin 4096) (q : Fin 128) :
    gcn x adj w b (ix2 p q) = (∑ k : Fin 4096, adj (ix2 p k) * support x w (ix2 k q)) + b (ix1 q) := rfl

/-- Column `s` of column block `j` of the adjacency: node `512 · j + s`. -/
def node (j : Fin 8) (s : Fin 512) : Fin 4096 := ⟨j.val * 512 + s.val, by have := j.isLt; have := s.isLt; omega⟩

@[simp] theorem node_val (j : Fin 8) (s : Fin 512) : (node j s).val = j.val * 512 + s.val := rfl

/-- A sum over the 4096 nodes is the sum over the eight column blocks of the sums over each block's 512 nodes. -/
theorem sum_blocks512 {M : Type*} [AddCommMonoid M] (f : Fin 4096 → M) :
    ∑ k, f k = ∑ j : Fin 8, ∑ s : Fin 512, f (node j s) :=
  Cert.Lib.GatedMlp.sum_blocks (nB := 8) (H := 512) f

/-- Eight terms added one after the other onto zero are their sum. -/
theorem chain_eq_sum {M : Type*} [AddCommMonoid M] (a : Fin 8 → M) :
    (((((((0 + a 0) + a 1) + a 2) + a 3) + a 4) + a 5) + a 6) + a 7 = ∑ j, a j := by
  simp only [Fin.sum_univ_succ, Fin.sum_univ_zero, add_zero, zero_add]
  simp only [add_assoc]
  rfl

end Cert.GcnSpec

end
-- ==== Proof.KernelPoint.lean ====
/-
  One entry of what a grid point of the graph-convolution kernel writes back is the layer's entry.

  A point multiplies its 512 × 4096 block of the adjacency by the support matrix x · W and adds the bias
  row.  If row r of the block is row p₀ + r of the adjacency and the one-row block is the bias, then entry
  (r, q) of the result is   ∑ₖ adj (p₀ + r, k) · (∑_f x (k, f) · w (f, q))  +  bias q,   which is entry
  (p₀ + r, q) of the layer as the specification writes it.  The two sides are the same sums of the same
  products in the same order: nothing is rearranged.
-/
import proofs.«131383_g2000703821448203_pallasbulk_153_16_alg».proof.Proof.KernelEntry
import proofs.«131383_g2000703821448203_pallasbulk_153_16_alg».proof.Proof.GcnSpec

noncomputable section

open Idealize.ShloMosaic Idealize.ShloMosaic.ValueIdx
open scoped BigOperators

namespace Cert.KernelIdeal.GcnValue

open Cert.KernelIdeal Cert.KernelIdeal.Gen Cert.GcnSpec

/-- Entry (r, q) of the block a point stores, when the point's adjacency block starts at row p₀ of the adjacency and
    its one-row block is the bias: the layer's entry (p₀ + r, q). -/
theorem entry_gcn (X : Vec Ideal S4096x256 .f32) (A : Vec Ideal S4096x4096 .f32) (W : Vec Ideal S256x128 .f32)
    (B : Vec Ideal S128 .f32) (a : Vec Ideal S512x4096 .f32) (b : Vec Ideal S1x128 .f32) (p0 : ℕ)
    (ha : ∀ (r : Fin 512) (k : Fin 4096) (hp : p0 + r.val < 4096), a (ix2 r k) = A (ix2 (⟨p0 + r.val, hp⟩ : Fin 4096) k))
    (hb : ∀ q : Fin 128, b (ix2 (0 : Fin 1) q) = B (ix1 q))
    (r : Fin 512) (q : Fin 128) (hp : p0 + r.val < 4096) :
    k0_pay2 a (k0_pay1 X W) b (ix2 r q) = gcn X A W B (ix2 (⟨p0 + r.val, hp⟩ : Fin 4096) q) := by
  rw [pay2_apply, gcn_apply, hb]
  refine congrArg (· + B (ix1 q)) (Finset.sum_congr rfl fun k _ => ?_)
  rw [ha r k hp, pay1_apply, support_apply]

end Cert.KernelIdeal.GcnValue
end
-- ==== Proof.KernelValue.lean ====
/-
  The graph-convolution kernel's result array, as one function of its four argument arrays.

  Every grid point t writes back a 512 × 128 block: its block of the adjacency (rows 512 · t … 512 · t + 511)
  times the support matrix x · W the kernel carries, plus the bias row.  Entry (r, q) of that block is the
  layer's entry (512 · t + r, q) — the bias row the kernel finds is the bias vector cast to one row, so its
  entry (0, q) is the bias at q.  The eight blocks tile the 4096 rows (row p lies in the block of point
  p / 512, and every point writes back), so the array ends holding the layer, entry for entry; the four
  arguments end as they were.  No property of the entries is used: they may be any extended reals.
-/
import proofs.«131383_g2000703821448203_pallasbulk_153_16_alg».proof.Proof.KernelCarried
import proofs.«131383_g2000703821448203_pallasbulk_153_16_alg».proof.Proof.KernelPoint
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.GcnValue

open Cert.KernelIdeal Cert.KernelIdeal.Gen Cert.GcnSpec

variable (m : (ℓ : Loc nD τ sig) → Buf (Elt Ideal) ℓ) (ρ : Dev nD → PrngReg)

/-- The layer of the four argument arrays as launched, as contents of the result array. -/
abbrev layer (c : Dev nD) : Buf (Elt Ideal) ((c : Thread nD τ).loc main_v1) :=
  gcn (m ((c : Thread nD τ).loc main_arg0)) (m ((c : Thread nD τ).loc main_arg1)) (m ((c : Thread nD τ).loc main_arg2)) (m ((c : Thread nD τ).loc main_arg3))

/-- The one-row bias array the kernel finds is the bias vector cast to one row: its entry (0, q) is the bias at q. -/
theorem bias_row (c : Dev nD) (q : Fin 128) :
    (V m c main_v0 : S1x128.Idx → EReal) (ix2 (0 : Fin 1) q) = (m ((c : Thread nD τ).loc main_arg3)) (ix1 q) := by
  have e : (V m c main_v0 : S1x128.Idx → EReal)
      = shapeCast S1x128 (m ((c : Thread nD τ).loc main_arg3)) Facts₀.shapeCasts_S128_S1x128 := by
    dsimp only [Gen.V, Gen.hostOps0]; after_results; rfl
  rw [e]
  exact shapeCast_a_1a_apply _ _ 0 q

/-- WHAT POINT t WRITES BACK is block t of the layer. -/
theorem flushed_eq (c : Dev nD) (t : Fin cfg0.N) :
    (dats m 0 c).flushed 4 t = ((cfg0.win 4).blk t).view.read (Elt Ideal) (layer m c) := by
  rw [flushed_pay m c t]
  funext y
  obtain ⟨r, q, rfl⟩ : ∃ (r : Fin 512) (q : Fin 128), y = ix2 r q := ⟨y 0, y 1, eq_ix2 y⟩
  have hN : t.val < 8 := lt_of_lt_of_eq t.isLt (show cfg0.N = 8 from N_0)
  have hp : t.val * 512 + r.val < 4096 := by have := r.isLt; omega
  rw [View.read_apply]
  show k0_pay2 (iblk m c 2 t) (held m c) (iblk m c 3 t) (ix2 r q) = layer m c (((cfg0.win 4).blk t).view.emb (ix2 r q))
  rw [out_emb t r q hp]
  exact entry_gcn (m ((c : Thread nD τ).loc main_arg0)) (m ((c : Thread nD τ).loc main_arg1)) (m ((c : Thread nD τ).loc main_arg2)) (m ((c : Thread nD τ).loc main_arg3))
    (iblk m c 2 t) (iblk m c 3 t) (t.val * 512)
    (fun r k hp => (blk_adj m c t r k hp).trans (congrFun (V_main_arg1 m c) _))
    (fun q => (congrFun (blk_bias m c t) _).trans (bias_row m c q)) r q hp

/-- An index of the result array is in point t's block iff each coordinate is in the block's range on its axis. -/
theorem mem_blk (t : Fin cfg0.N) (i : S4096x128.Idx) :
    i ∈ ((cfg0.win 4).blk t).view.set
      ↔ ∀ a : Fin 2, win0_4.index t a * S512x128.size a ≤ (i a).val ∧ (i a).val < win0_4.index t a * S512x128.size a + S512x128.size a := by
  show i ∈ ((View.whole main_v1).slice (win0_4.rect t)).set ↔ _
  rw [View.set_slice_whole, Rect.mem_set_unit]
  exact Iff.rfl

/-- THE RESULT ARRAY after the run is the layer: row p lies in the block of point p / 512, which writes back. -/
theorem final (c : Dev nD) : (dats m 0 c).arrAt 4 cfg0.N = layer m c :=
  (dats m 0 c).arrAt_eq_of_cover 4 (layer m c) (fun t _ => flushed_eq m c t) fun i => by
    have hN : cfg0.N = 8 := N_0
    have h0 : (i 0 : Nat) < 4096 := (i 0).isLt
    have h1 : (i 1 : Nat) < 128 := (i 1).isLt
    have ht : (i 0 : Nat) / 512 < cfg0.N := by rw [hN]; omega
    refine ⟨⟨(i 0 : Nat) / 512, ht⟩, flush0_4 _, ?_⟩
    rw [mem_blk]
    obtain ⟨-, -, -, -, -, -, -, -, e0, e1⟩ := idx_facts ⟨(i 0 : Nat) / 512, ht⟩
    have e0' : win0_4.index ⟨(i 0 : Nat) / 512, ht⟩ (0 : Fin 2) = (i 0 : Nat) / 512 := e0
    intro a
    match a with
    | ⟨0, _⟩ =>
      show win0_4.index ⟨(i 0 : Nat) / 512, ht⟩ (0 : Fin 2) * 512 ≤ (i 0 : Nat)
        ∧ (i 0 : Nat) < win0_4.index ⟨(i 0 : Nat) / 512, ht⟩ (0 : Fin 2) * 512 + 512
      rw [e0']; omega
    | ⟨1, _⟩ =>
      show win0_4.index ⟨(i 0 : Nat) / 512, ht⟩ (1 : Fin 2) * 128 ≤ (i 1 : Nat)
        ∧ (i 1 : Nat) < win0_4.index ⟨(i 0 : Nat) / 512, ht⟩ (1 : Fin 2) * 128 + 128
      rw [e1]; omega

/-- THE RUN, READ: every weakly fair execution of the kernel's program ends with the result array at the layer of
    the four arguments as launched, and the four arguments unchanged. -/
theorem run : θ_run (defs (F := Ideal)) (onTc (τ := τ) (main (F := Ideal))) ⟨m, fun _ => 0, ρ⟩ fun r => ∀ c : Dev nD,
      r.2.mem ((c : Thread nD τ).loc main_v1)
        = gcn (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.GcnValue
end
-- ==== Proof.RefRun.lean ====
/-
  The reference program's run with its result named.  The program is a stretch of host operations followed
  by two kernel launches; the buffer contents at each boundary are a fold from the launch memory
  (`Gen.W1`, `Gen.W2`, `Gen.W3`), and after the run every buffer that outlives the launches holds the
  last fold's contents.  Read at the result's buffer this names the result array; read at the arguments'
  buffers it says they end as launched.
-/
import proofs.«131383_g2000703821448203_pallasbulk_153_16_alg».proof.Proof.Gen.ReferenceIdeal.Frame

set_option maxRecDepth 16384

noncomputable section

namespace Cert.ReferenceIdeal.GcnRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the reference terminates, nothing faulting, with the result array at the
    last boundary's contents of its buffer and the four argument arrays as launched. -/
theorem run_named : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

/-- The result's buffer is the second launch's output array: after the run it holds what that launch's
    write-backs leave, from the contents the first launch left. -/
theorem result_arr (c : Dev nD) :
    W3 m ρ c (Proc.devRef .tc main_v3) = (dat1 (V2 m ρ) c).arrAt 3 cfg1.N :=
  W3_arr m ρ c 3

end Cert.ReferenceIdeal.GcnRun

end
-- ==== Proof.RefAccumPieces.lean ====
/-
  The second launch of the reference accumulates, over the eight column blocks of the adjacency, the products
  of a [512, 512] block of the adjacency with the matching 512 rows of the support matrix into one
  [512, 128] output block.  What the body leaves in the output block depends on the column block:
    * at the first column block: the zero block plus the product;
    * at the middle ones: what the block held plus the product;
    * at the last one: what the block held plus the product, plus the bias row.
  Each is the last store's value with the earlier stores read back through it.
-/
import proofs.«131383_g2000703821448203_pallasbulk_153_16_alg».proof.Proof.Gen.ReferenceIdeal.Frame
import Idealize.ShloMosaic.Lib.Pipeline.Value
import Idealize.ShloMosaic.Lib.Tactic

set_option maxRecDepth 16384

noncomputable section

namespace Cert.ReferenceIdeal.GcnAccum

open Cert.ReferenceIdeal Cert.ReferenceIdeal.Gen
open Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- The 512 rows of the whole support matrix that the body loads at column block `i 1`: rows
    `512 · (i 1)` onwards. -/
def supRows (i : grid1.Coords) (sup : Vec F S4096x128 .bf16) : Vec F S512x128 .bf16 :=
  View.ld sup (Rect.unit (s := S4096x128) (k1_off1 i) S512x128.size (k1_off1_inb i))

/-- First column block: the zero block plus the product. -/
theorem out_first (c : Dev nD) (i : grid1.Coords) (a2 : Memref sig .tc .vmem S512x512 .bf16) (h2 : a2.IsWhole)
    (a3 : Memref sig .tc .vmem S4096x128 .bf16) (h3 : a3.IsWhole) (a4 : Memref sig .tc .vmem S1x128 .f32) (h4 : a4.IsWhole)
    (a5 : Memref sig .tc .vmem S512x128 .f32) (h5 : a5.IsWhole) (hc0 : cond1_0 i) (hc1 : ¬cond1_1 i)
    (x0 : Vec F S512x512 .bf16) (x1 : Vec F S4096x128 .bf16) (x2 : Vec F S1x128 .f32) :
    out1_A_3 c i a2 h2 a3 h3 a4 h4 a5 h5 hc0 hc1 x0 x1 x2 = k1_pay2 k1_pay1 x0 (supRows i x1) := by
  unfold out1_A_3
  rw [View.read_writes_eq_canon _ _ _ (cover1_A_3 c i a2 h2 a3 h3 a4 h4 a5 h5 hc0 hc1 x0 x1 x2)]
  unfold kernelRun1_A
  dsimp only
  sl_unfold_words
  rw [View.canon_cons_unit_zero (S := S512x128) hz, View.readCov_unit_zero (S := S512x128) _ hz]
  simp only [View.readAt_eq_ld, h2.read_unread, h3.read_unread, View.ld_unit_zero (S := S512x512) hz]
  rfl

/-- A middle column block: what the block held plus the product. -/
theorem out_middle (c : Dev nD) (i : grid1.Coords) (a2 : Memref sig .tc .vmem S512x512 .bf16) (h2 : a2.IsWhole)
    (a3 : Memref sig .tc .vmem S4096x128 .bf16) (h3 : a3.IsWhole) (a4 : Memref sig .tc .vmem S1x128 .f32) (h4 : a4.IsWhole)
    (a5 : Memref sig .tc .vmem S512x128 .f32) (h5 : a5.IsWhole) (hc0 : ¬cond1_0 i) (hc1 : ¬cond1_1 i)
    (x0 : Vec F S512x512 .bf16) (x1 : Vec F S4096x128 .bf16) (x2 : Vec F S1x128 .f32) (xo : Vec F S512x128 .f32) :
    out1_B_3 c i a2 h2 a3 h3 a4 h4 a5 h5 hc0 hc1 x0 x1 x2 xo = k1_pay2 xo x0 (supRows i x1) := by
  unfold out1_B_3
  rw [View.read_writes_eq_canon _ _ _ (cover1_B_3 c i a2 h2 a3 h3 a4 h4 a5 h5 hc0 hc1 x0 x1 x2 xo)]
  unfold kernelRun1_B
  dsimp only
  sl_unfold_words
  rw [View.canon_unit_zero hz]
  simp only [View.readAt_eq_ld, h2.read_unread, h3.read_unread, h5.read_unread, View.ld_unit_zero (S := S512x512) hz,
    View.ld_unit_zero (S := S512x128) hz]
  rfl

/-- The last column block: what the block held plus the product, plus the bias row. -/
theorem out_last (c : Dev nD) (i : grid1.Coords) (a2 : Memref sig .tc .vmem S512x512 .bf16) (h2 : a2.IsWhole)
    (a3 : Memref sig .tc .vmem S4096x128 .bf16) (h3 : a3.IsWhole) (a4 : Memref sig .tc .vmem S1x128 .f32) (h4 : a4.IsWhole)
    (a5 : Memref sig .tc .vmem S512x128 .f32) (h5 : a5.IsWhole) (hc0 : ¬cond1_0 i) (hc1 : cond1_1 i)
    (x0 : Vec F S512x512 .bf16) (x1 : Vec F S4096x128 .bf16) (x2 : Vec F S1x128 .f32) (xo : Vec F S512x128 .f32) :
    out1_C_3 c i a2 h2 a3 h3 a4 h4 a5 h5 hc0 hc1 x0 x1 x2 xo = k1_pay3 (k1_pay2 xo x0 (supRows i x1)) x2 := by
  unfold out1_C_3
  rw [View.read_writes_eq_canon _ _ _ (cover1_C_3 c i a2 h2 a3 h3 a4 h4 a5 h5 hc0 hc1 x0 x1 x2 xo)]
  unfold kernelRun1_C
  dsimp only
  sl_unfold_words
  rw [View.canon_cons_unit_zero (S := S512x128) hz, View.readCov_unit_zero (S := S512x128) _ hz]
  simp only [View.readAt_eq_ld, h2.read_unread, h3.read_unread, h4.read_unread, h5.read_unread,
    View.ld_unit_zero (S := S512x512) hz, View.ld_unit_zero (S := S512x128) hz, View.ld_unit_zero (S := S1x128) hz]
  rfl

end Cert.ReferenceIdeal.GcnAccum

end
-- ==== Proof.RefAccumEntry.lean ====
/-
  The values the second launch of the reference stores, read at an entry (r, q) of the [512, 128] output
  block, on the extended reals:
    * the zero block is 0 everywhere;
    * "what the block held plus the product" is  acc (r, q) + ∑ k < 512, a (r, k) · s (k, q);
    * adding the bias row adds  b (0, q).
  And the 512 rows of the support matrix loaded at column block j, read at (s, q), are the whole matrix at
  (512 · j + s, q).
-/
import proofs.«131383_g2000703821448203_pallasbulk_153_16_alg».proof.Proof.RefAccumPieces
import proofs.«131383_g2000703821448203_pallasbulk_153_16_alg».proof.Proof.LibDense
import Idealize.ShloMosaic.PureOps.Ideal.Laws
import Idealize.ShloMosaic.Lib.ValueIdx
import Idealize.ShloMosaic.Lib.ValueLayout

set_option maxRecDepth 16384

noncomputable section

namespace Cert.ReferenceIdeal.GcnAccum

open Cert.ReferenceIdeal Cert.ReferenceIdeal.Gen
open Idealize.ShloMosaic Idealize.ShloMosaic.TcCoe Idealize.ShloMosaic.ValueIdx
open scoped BigOperators

/-- The zero block is 0 at every entry. -/
theorem zero_apply (j : S512x128.Idx) : (k1_pay1 (F := Ideal)) j = (0 : EReal) := by
  unfold k1_pay1
  show Ideal.ofBits .f32 0x00000000#32 = 0
  exact Ideal.ofBits_zero_f32

/-- What the block held plus the product of a [512, 512] block by 512 rows of the support. -/
theorem acc_apply (acc : Vec Ideal S512x128 .f32) (a : Vec Ideal S512x512 .bf16) (s : Vec Ideal S512x128 .bf16)
    (r : Fin 512) (q : Fin 128) :
    k1_pay2 (F := Ideal) acc a s (ix2 r q) = (acc (ix2 r q) : EReal) + ∑ k : Fin 512, (a (ix2 r k) : EReal) * s (ix2 k q) := by
  unfold k1_pay2
  simp only [shapeCast_self]
  show (acc (ix2 r q) : EReal) + matmul (F := Ideal) dot_S512x512_S512x128_S512x128_1_0_0_1_n_n none a s (constant (F := Ideal) S512x128 .f32 0x00000000#32) (ix2 r q) = _
  congr 1
  exact Cert.LibDense.matmul_zero_rc (M := 512) (K := 512) (N := 128) dot_S512x512_S512x128_S512x128_1_0_0_1_n_n rfl rfl
    (fun _ _ => rfl) (fun _ _ => rfl) (fun _ _ => rfl) (fun _ _ => rfl) none a s r q

/-- Adding the bias row. -/
theorem bias_apply (v : Vec Ideal S512x128 .f32) (b : Vec Ideal S1x128 .f32) (r : Fin 512) (q : Fin 128) :
    k1_pay3 (F := Ideal) v b (ix2 r q) = (v (ix2 r q) : EReal) + b (ix2 (0 : Fin 1) q) := by
  unfold k1_pay3
  simp only [shapeCast_self]
  show (v (ix2 r q) : EReal) + (broadcastTo S512x128 b broadcasts_S1x128_S512x128 (ix2 r q) : EReal) = _
  congr 1
  exact broadcastTo_1b_ab_apply (a := 512) (b := 128) b broadcasts_S1x128_S512x128 r q

/-- Where the body's sliced load of the support starts, at every grid point: row 512 · (column block), lane 0. -/
theorem off_fact : ∀ t : Fin cfg1.N, k1_off1 (grid1.coords t) 0 = (t.val % 8) * 512 ∧ k1_off1 (grid1.coords t) 1 = 0 :=
  (by decide +kernel : ∀ t : Fin grid1.N, k1_off1 (grid1.coords t) 0 = (t.val % 8) * 512 ∧ k1_off1 (grid1.coords t) 1 = 0)

/-- Node `512 · (t mod 8) + s`: entry `s` of the column block that grid point `t` works on. -/
def colOf (t : ℕ) (s : Fin 512) : Fin 4096 := ⟨(t % 8) * 512 + s.val, by have := s.isLt; omega⟩

/-- Row `512 · (t / 8) + r`: entry `r` of the row block that grid point `t` works on. -/
def rowOf (t : ℕ) (r : Fin 512) : Fin 4096 := ⟨(t / 8 % 8) * 512 + r.val, by have := r.isLt; omega⟩

/-- The loaded rows of the support, read at (s, q): the whole support at (512 · (t mod 8) + s, q). -/
theorem supRows_apply (t : Fin cfg1.N) (sup : Vec Ideal S4096x128 .bf16) (s : Fin 512) (q : Fin 128) :
    supRows (F := Ideal) (grid1.coords t) sup (ix2 s q) = sup (ix2 (colOf t.val s) q) := by
  unfold supRows
  show sup _ = sup _
  congr 1
  funext a
  apply Fin.ext
  match a with
  | ⟨0, _⟩ =>
    show k1_off1 (grid1.coords t) 0 + 1 * s.val = (t.val % 8) * 512 + s.val
    rw [(off_fact t).1]; omega
  | ⟨1, _⟩ =>
    show k1_off1 (grid1.coords t) 1 + 1 * q.val = q.val
    rw [(off_fact t).2]; omega

end Cert.ReferenceIdeal.GcnAccum

end
-- ==== Proof.RefAccum.lean ====
/-
  The second launch of the reference, read as a value.  Grid point t works on row block t / 8 and column
  block t mod 8.  After point t the [512, 128] output block holds, at (r, q), the sum over the column blocks
  j ≤ t mod 8 of the block products  ∑ s < 512, adj (512·(t/8) + r, 512·j + s) · sup (512·j + s, q)  (the
  zero block it starts from adds nothing), plus the bias at q once the last column block is done.  The block
  is written back at the last column block only, and the eight row blocks tile the array, so the array ends
  at  (∑ k < 4096, adj (p, k) · sup (k, q)) + bias (0, q)  — the sum over 4096 nodes regrouped into eight
  blocks of 512.
-/
import proofs.«131383_g2000703821448203_pallasbulk_153_16_alg».proof.Proof.RefAccumEntry
import proofs.«131383_g2000703821448203_pallasbulk_153_16_alg».proof.Proof.GcnSpec
import Idealize.ShloMosaic.Lib.Pipeline.Value

set_option maxRecDepth 16384

noncomputable section

namespace Cert.ReferenceIdeal.GcnAccum

open Cert.ReferenceIdeal Cert.ReferenceIdeal.Gen
open Idealize.ShloMosaic Idealize.ShloMosaic.TcCoe Idealize.ShloMosaic.ValueIdx Idealize.SL.Sem
open Idealize.ShloMosaic.Pipeline (Dat)
open scoped BigOperators

/-- What the output array holds after the launch, as a function of the adjacency, the support and the bias
    row as the launch finds them. -/
def accum (A : S4096x4096.Idx → EReal) (Sp : S4096x128.Idx → EReal) (Bv : S1x128.Idx → EReal) : S4096x128.Idx → EReal :=
  fun i => (∑ k : Fin 4096, A (ix2 (n0 := 4096) (n1 := 4096) (i 0) k) * Sp (ix2 (n0 := 4096) (n1 := 128) k (i 1)))
    + Bv (ix2 (n0 := 1) (n1 := 128) (0 : Fin 1) (i 1))

theorem accum_apply (A : S4096x4096.Idx → EReal) (Sp : S4096x128.Idx → EReal) (Bv : S1x128.Idx → EReal)
    (p : Fin 4096) (q : Fin 128) :
    accum A Sp Bv (ix2 p q) = (∑ k : Fin 4096, A (ix2 p k) * Sp (ix2 k q)) + Bv (ix2 (0 : Fin 1) q) := rfl

/-- The product of row p of the adjacency, restricted to column block j, with column q of the support. -/
def blockTerm (A : S4096x4096.Idx → EReal) (Sp : S4096x128.Idx → EReal) (p : Fin 4096) (q : Fin 128) (j : ℕ) : EReal :=
  ∑ s : Fin 512, A (ix2 p (colOf j s)) * Sp (ix2 (colOf j s) q)

theorem colOf_mod (j : ℕ) (s : Fin 512) : colOf (j % 8) s = colOf j s :=
  Fin.ext (by show (j % 8 % 8) * 512 + s.val = (j % 8) * 512 + s.val; rw [Nat.mod_mod])

theorem blockTerm_mod (A : S4096x4096.Idx → EReal) (Sp : S4096x128.Idx → EReal) (p : Fin 4096) (q : Fin 128) (j : ℕ) :
    blockTerm A Sp p q (j % 8) = blockTerm A Sp p q j := by
  unfold blockTerm
  exact Finset.sum_congr rfl fun s _ => by rw [colOf_mod]

/-- The eight block products of a row add up to the row's whole product. -/
theorem sum_blockTerm (A : S4096x4096.Idx → EReal) (Sp : S4096x128.Idx → EReal) (p : Fin 4096) (q : Fin 128) :
    ∑ j ∈ Finset.range 8, blockTerm A Sp p q j = ∑ k : Fin 4096, A (ix2 p k) * Sp (ix2 k q) := by
  rw [Cert.GcnSpec.sum_blocks512, Finset.sum_range]
  refine Finset.sum_congr rfl fun j _ => ?_
  unfold blockTerm
  refine Finset.sum_congr rfl fun s _ => ?_
  have e : colOf j.val s = Cert.GcnSpec.node j s :=
    Fin.ext (by show (j.val % 8) * 512 + s.val = j.val * 512 + s.val; rw [Nat.mod_eq_of_lt j.isLt])
  rw [e]

section
variable (V : (c : Dev nD) → (b : Ref sig .tc) → Buf (Elt Ideal) ((c : Thread nD τ).loc b))

/-- The adjacency, the support and the bias row as the launch finds them, as arrays of extended reals. -/
abbrev adjAt (c : Dev nD) : S4096x4096.Idx → EReal := V c main_v1
abbrev supAt (c : Dev nD) : S4096x128.Idx → EReal := V c main_v2
abbrev biasAt (c : Dev nD) : S1x128.Idx → EReal := V c main_v0

/-- The printed index maps, decided over the 64 grid points: the adjacency's block is (t / 8, t mod 8), the
    support and the bias row are whole, the output's block is (t / 8, 0). -/
theorem idx_facts : ∀ t : Fin cfg1.N,
    win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N,
    win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0)

theorem lt64 (t : Fin cfg1.N) : t.val < 64 := lt_of_lt_of_eq t.isLt (show cfg1.N = 64 from N_1)

/-- The adjacency's block at point t, read at (r, s): the array at (512·(t/8) + r, 512·(t mod 8) + s). -/
theorem iblk_adj (c : Dev nD) (t : Fin cfg1.N) (r s : Fin 512) :
    (iblk1 V c 0 t : S512x512.Idx → EReal) (ix2 r s) = adjAt V c (ix2 (rowOf t.val r) (colOf t.val s)) := by
  obtain ⟨e0, e1, -⟩ := idx_facts t
  have hN := lt64 t
  unfold iblk1
  rw [View.read_apply]
  show (V c main_v1 : S4096x4096.Idx → EReal) _ = (V c main_v1 : S4096x4096.Idx → EReal) _
  congr 1
  funext a
  apply Fin.ext
  match a with
  | ⟨0, _⟩ =>
    show win1_0.index t (0 : Fin 2) * 512 + 1 * r.val = (t.val / 8 % 8) * 512 + r.val
    rw [e0]; omega
  | ⟨1, _⟩ =>
    show win1_0.index t (1 : Fin 2) * 512 + 1 * s.val = (t.val % 8) * 512 + s.val
    rw [e1]; omega

/-- The support's block at every point is the whole array. -/
theorem iblk_sup (c : Dev nD) (t : Fin cfg1.N) :
    (iblk1 V c 1 t : S4096x128.Idx → EReal) = supAt V c := by
  obtain ⟨-, -, e2, e3, -⟩ := idx_facts t
  funext j
  unfold iblk1
  rw [View.read_apply]
  show (V c main_v2 : S4096x128.Idx → EReal) _ = (V c main_v2 : S4096x128.Idx → EReal) j
  congr 1
  funext a
  apply Fin.ext
  match a with
  | ⟨0, _⟩ =>
    show win1_1.index t (0 : Fin 2) * 4096 + 1 * (j 0).val = (j 0).val
    rw [e2]; omega
  | ⟨1, _⟩ =>
    show win1_1.index t (1 : Fin 2) * 128 + 1 * (j 1).val = (j 1).val
    rw [e3]; omega

/-- The bias row's block at every point is the whole row. -/
theorem iblk_bias (c : Dev nD) (t : Fin cfg1.N) :
    (iblk1 V c 2 t : S1x128.Idx → EReal) = biasAt V c := by
  obtain ⟨-, -, -, -, e4, e5, -⟩ := idx_facts t
  funext j
  unfold iblk1
  rw [View.read_apply]
  show (V c main_v0 : S1x128.Idx → EReal) _ = (V c main_v0 : S1x128.Idx → EReal) j
  congr 1
  funext a
  apply Fin.ext
  match a with
  | ⟨0, _⟩ =>
    show win1_2.index t (0 : Fin 2) * 1 + 1 * (j 0).val = (j 0).val
    rw [e4]; omega
  | ⟨1, _⟩ =>
    show win1_2.index t (1 : Fin 2) * 128 + 1 * (j 1).val = (j 1).val
    rw [e5]; omega

/-- The product the body adds at a point, read at (r, q), is the block product of the point's column block:
    stated over a block `a` of the adjacency and 512 rows `sr` of the support known entry by entry. -/
theorem prod_of (A : S4096x4096.Idx → EReal) (Sp : S4096x128.Idx → EReal) (n : ℕ)
    (a : Vec Ideal S512x512 .bf16) (sr : Vec Ideal S512x128 .bf16) (r : Fin 512) (q : Fin 128)
    (ha : ∀ k : Fin 512, (a (ix2 r k) : EReal) = A (ix2 (rowOf n r) (colOf n k)))
    (hs : ∀ k : Fin 512, (sr (ix2 k q) : EReal) = Sp (ix2 (colOf n k) q)) :
    ∑ k : Fin 512, (a (ix2 r k) : EReal) * sr (ix2 k q) = blockTerm A Sp (rowOf n r) q n := by
  unfold blockTerm
  exact Finset.sum_congr rfl fun k _ => by rw [ha k, hs k]

/-- The two entry-by-entry facts at grid point t. -/
theorem adj_entries (c : Dev nD) (t : Fin cfg1.N) (r : Fin 512) (k : Fin 512) :
    (iblk1 V c 0 t : S512x512.Idx → EReal) (ix2 r k) = adjAt V c (ix2 (rowOf t.val r) (colOf t.val k)) :=
  iblk_adj V c t r k

theorem sup_entries (c : Dev nD) (t : Fin cfg1.N) (k : Fin 512) (q : Fin 128) :
    (supRows (F := Ideal) (grid1.coords t) (iblk1 V c 1 t) (ix2 k q) : EReal) = supAt V c (ix2 (colOf t.val k) q) := by
  rw [supRows_apply t (iblk1 V c 1 t) k q, iblk_sup V c t]

/-- At the first column block the body leaves the block product (the zero block adds nothing). -/
theorem at_first (c : Dev nD) (t : Fin cfg1.N) (h0 : t.val % 8 = 0) (h1 : ¬t.val % 8 = 7) (r : Fin 512) (q : Fin 128) :
    (outsAt1 V c t.val t.isLt : S512x128.Idx → EReal) (ix2 r q)
      = blockTerm (adjAt V c) (supAt V c) (rowOf t.val r) q t.val := by
  rw [outsAt1_A V c t h0 h1, out_first, acc_apply, zero_apply, zero_add]
  exact prod_of (adjAt V c) (supAt V c) t.val _ _ r q (adj_entries V c t r) (fun k => sup_entries V c t k q)

/-- At a middle column block: what the point before left, plus the block product. -/
theorem at_middle (c : Dev nD) (t : Fin cfg1.N) (h0 : ¬t.val % 8 = 0) (h1 : ¬t.val % 8 = 7) (r : Fin 512) (q : Fin 128) :
    (outsAt1 V c t.val t.isLt : S512x128.Idx → EReal) (ix2 r q)
      = (outsAt1 V c (t.val - 1) (Nat.lt_of_le_of_lt (Nat.sub_le _ _) t.isLt) : S512x128.Idx → EReal) (ix2 r q)
        + blockTerm (adjAt V c) (supAt V c) (rowOf t.val r) q t.val := by
  rw [outsAt1_B V c t h0 h1, out_middle, acc_apply]
  congr 1
  exact prod_of (adjAt V c) (supAt V c) t.val _ _ r q (adj_entries V c t r) (fun k => sup_entries V c t k q)

/-- At the last column block: what the point before left, plus the block product, plus the bias. -/
theorem at_last (c : Dev nD) (t : Fin cfg1.N) (h0 : ¬t.val % 8 = 0) (h1 : t.val % 8 = 7) (r : Fin 512) (q : Fin 128) :
    (outsAt1 V c t.val t.isLt : S512x128.Idx → EReal) (ix2 r q)
      = ((outsAt1 V c (t.val - 1) (Nat.lt_of_le_of_lt (Nat.sub_le _ _) t.isLt) : S512x128.Idx → EReal) (ix2 r q)
        + blockTerm (adjAt V c) (supAt V c) (rowOf t.val r) q t.val) + biasAt V c (ix2 (0 : Fin 1) q) := by
  rw [outsAt1_C V c t h0 h1, out_last, bias_apply, acc_apply, iblk_bias V c t]
  congr 2
  exact prod_of (adjAt V c) (supAt V c) t.val _ _ r q (adj_entries V c t r) (fun k => sup_entries V c t k q)

/-- THE RUNNING SUM: after point n the output block holds the block products of the column blocks up to
    n mod 8, and the bias once the last one is in. -/
theorem outsAt_eq (c : Dev nD) : ∀ (n : ℕ) (h : n < cfg1.N) (r : Fin 512) (q : Fin 128),
    (outsAt1 V c n h : S512x128.Idx → EReal) (ix2 r q)
      = (∑ j ∈ Finset.range (n % 8 + 1), blockTerm (adjAt V c) (supAt V c) (rowOf n r) q j)
        + (if n % 8 = 7 then biasAt V c (ix2 (0 : Fin 1) q) else 0)
  | 0, h, r, q => by
    rw [at_first V c ⟨0, h⟩ rfl (show ¬((0 : ℕ) % 8 = 7) by decide) r q]
    simp only [Nat.zero_mod, Nat.zero_add, Finset.range_one, Finset.sum_singleton, show ¬((0 : ℕ) = 7) by decide, if_false, add_zero]
  | n + 1, h, r, q => by
    have hN : n + 1 < 64 := lt_of_lt_of_eq h (show cfg1.N = 64 from N_1)
    have ih := outsAt_eq c n (Nat.lt_of_succ_lt h) r q
    by_cases h0 : (n + 1) % 8 = 0
    · have h1 : ¬(n + 1) % 8 = 7 := by omega
      rw [at_first V c ⟨n + 1, h⟩ h0 h1 r q, if_neg h1, add_zero, h0, Finset.range_one, Finset.sum_singleton]
      show blockTerm _ _ _ q (n + 1) = _
      rw [← blockTerm_mod, h0]
    · have hk : (n + 1) % 8 = n % 8 + 1 := by omega
      have hrow : rowOf (n + 1) r = rowOf n r := Fin.ext (by
        show ((n + 1) / 8 % 8) * 512 + r.val = (n / 8 % 8) * 512 + r.val
        have : (n + 1) / 8 = n / 8 := by omega
        rw [this])
      have hn7 : ¬n % 8 = 7 := by omega
      have hterm : blockTerm (adjAt V c) (supAt V c) (rowOf n r) q (n + 1)
          = blockTerm (adjAt V c) (supAt V c) (rowOf n r) q (n % 8 + 1) := by
        rw [← blockTerm_mod, hk]
      by_cases h1 : (n + 1) % 8 = 7
      · rw [at_last V c ⟨n + 1, h⟩ h0 h1 r q, if_pos h1]
        show ((outsAt1 V c n _ : S512x128.Idx → EReal) (ix2 r q) + blockTerm _ _ (rowOf (n + 1) r) q (n + 1)) + _ = _
        rw [ih, if_neg hn7, add_zero, hrow, hterm, hk, Finset.sum_range_succ _ (n % 8 + 1)]
      · rw [at_middle V c ⟨n + 1, h⟩ h0 h1 r q, if_neg h1, add_zero]
        show (outsAt1 V c n _ : S512x128.Idx → EReal) (ix2 r q) + blockTerm _ _ (rowOf (n + 1) r) q (n + 1) = _
        rw [ih, if_neg hn7, add_zero, hrow, hterm, hk, Finset.sum_range_succ _ (n % 8 + 1)]

/-- WHAT A WRITE-BACK WRITES: at the last column block of row block t / 8, the output block is that row
    block of `accum`. -/
theorem flushed_eq (c : Dev nD) (t : Fin cfg1.N) (hf : (cfg1.win 3).flush t = true) :
    (dat1 V c).flushed 3 t = ((cfg1.win 3).blk t).view.read (Elt Ideal) (accum (adjAt V c) (supAt V c) (biasAt V c)) := by
  have h7 : t.val % 8 = 7 := (flush1_3 t).mp hf
  obtain ⟨-, -, -, -, -, -, e6, e7⟩ := idx_facts t
  have hN := lt64 t
  show (cfg1.win 3).cut (grid1.coords t) ((dat1 V c).after 3 t) = _
  rw [after1_3]
  funext y
  obtain ⟨r, q, rfl⟩ : ∃ (r : Fin 512) (q : Fin 128), y = ix2 r q := ⟨y 0, y 1, eq_ix2 y⟩
  have hemb : ((cfg1.win 3).blk t).view.emb (ix2 r q) = ix2 (rowOf t.val r) q := by
    funext a
    apply Fin.ext
    match a with
    | ⟨0, _⟩ =>
      show win1_3.index t (0 : Fin 2) * 512 + 1 * r.val = (t.val / 8 % 8) * 512 + r.val
      rw [e6]; omega
    | ⟨1, _⟩ =>
      show win1_3.index t (1 : Fin 2) * 128 + 1 * q.val = q.val
      rw [e7]; omega
  show (outsAt1 V c t.val t.isLt : S512x128.Idx → EReal) (ix2 r q)
    = accum (adjAt V c) (supAt V c) (biasAt V c) (((cfg1.win 3).blk t).view.emb (ix2 r q))
  rw [hemb, accum_apply, outsAt_eq V c t.val t.isLt r q, if_pos h7, h7, sum_blockTerm]

/-- An index of the array is in point t's block iff each coordinate is in the block's range on its axis. -/
theorem mem_blk (t : Fin cfg1.N) (i : S4096x128.Idx) :
    i ∈ ((cfg1.win 3).blk t).view.set ↔ ∀ a : Fin 2, win1_3.index t a * S512x128.size a ≤ (i a).val ∧ (i a).val < win1_3.index t a * S512x128.size a + S512x128.size a := by
  show i ∈ ((View.whole main_v3).slice (win1_3.rect t)).set ↔ _
  rw [View.set_slice_whole, Rect.mem_set_unit]
  exact Iff.rfl

/-- Row p of the array lies in the block written back at the last column block of row block p / 512. -/
theorem cover (i : S4096x128.Idx) :
    ∃ t : Fin cfg1.N, (cfg1.win 3).flush t = true ∧ i ∈ ((cfg1.win 3).blk t).view.set := by
  have hi0 : (i 0).val < 4096 := (i 0).isLt
  have hi1 : (i 1).val < 128 := (i 1).isLt
  have hlt : 8 * ((i 0).val / 512) + 7 < cfg1.N := by rw [show cfg1.N = 64 from N_1]; omega
  refine ⟨⟨8 * ((i 0).val / 512) + 7, hlt⟩, (flush1_3 _).mpr (by show (8 * ((i 0).val / 512) + 7) % 8 = 7; omega), ?_⟩
  obtain ⟨-, -, -, -, -, -, e6, e7⟩ := idx_facts ⟨8 * ((i 0).val / 512) + 7, hlt⟩
  rw [mem_blk]
  intro a
  match a with
  | ⟨0, _⟩ =>
    show win1_3.index _ (0 : Fin 2) * 512 ≤ (i 0).val ∧ (i 0).val < win1_3.index _ (0 : Fin 2) * 512 + 512
    rw [e6]
    show (8 * ((i 0).val / 512) + 7) / 8 * 512 ≤ (i 0).val ∧ (i 0).val < (8 * ((i 0).val / 512) + 7) / 8 * 512 + 512
    omega
  | ⟨1, _⟩ =>
    show win1_3.index _ (1 : Fin 2) * 128 ≤ (i 1).val ∧ (i 1).val < win1_3.index _ (1 : Fin 2) * 128 + 128
    rw [e7]; omega

/-- THE ARRAY AFTER THE LAUNCH: `accum` of the adjacency, the support and the bias row as the launch finds them. -/
theorem accum_arr (c : Dev nD) :
    (dat1 V c).arrAt 3 cfg1.N = accum (adjAt V c) (supAt V c) (biasAt V c) :=
  (dat1 V c).arrAt_eq_of_cover 3 (accum (adjAt V c) (supAt V c) (biasAt V c)) (flushed_eq V c) cover

end

end Cert.ReferenceIdeal.GcnAccum

end
-- ==== Proof.RefSupportPieces.lean ====
/-
  The support matrix, one block of 512 rows at a time.

  At each of its eight steps the first region works on one block of 512 rows of x (all 256 input features)
  and on the whole of w.  It writes the zero block to a work buffer, reads it back, adds the product of the row
  block with w, writes the sum to the work buffer, reads it back once more, changes its format to the narrower
  one and leaves the result as the step's block of 512 rows of the support matrix.  On the extended reals the
  change of format is the identity and adding the zero block changes nothing, so entry (r, q) of the block is

      ∑ f, xb (r, f) · w (f, q)

  over the 256 input features: the rows 512·i + r of the support matrix x · w.  This file states that in two
  steps: the block is the three operations applied one after the other to the two blocks read (for every
  reading of the floats), and that composite, read at an entry on the extended reals, is the sum above.
-/
import proofs.«131383_g2000703821448203_pallasbulk_153_16_alg».proof.Proof.Gen.ReferenceIdeal.Frame
import proofs.«131383_g2000703821448203_pallasbulk_153_16_alg».proof.Proof.GcnSpec
import proofs.«131383_g2000703821448203_pallasbulk_153_16_alg».proof.Proof.LibDense
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.ReferenceIdeal.GcnSupport

open Cert.ReferenceIdeal Cert.ReferenceIdeal.Gen Idealize.ShloMosaic.ValueIdx
open Cert.GcnSpec (support support_apply node)
open scoped BigOperators

/-! ## The block a step leaves, for every reading of the floats -/

section AnyFloats

variable {F : FTy → Type} [FloatOps F]

/-- The offsets (0, 0), as the constant function. -/
theorem hz : (![0, 0] : Fin 2 → Nat) = fun _ => 0 := funext fun a => by fin_cases a <;> rfl

/-- A read of a whole buffer whose LAST write covered it whole returns what that write stored, whatever was
    written before. -/
theorem readCov_cons_unit_zero {Val : EltTy → Type} {S : Shape} {e : EltTy} [∀ e, Nonempty (Val e)]
    {sig : RefSig} {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons.mpr (Or.inl rfl), View.mem_set_unit_zero h inb y⟩),
    View.canon_cons_unit_zero h, View.ld_unit_zero h]

/-- What a step leaves in the output's block, from the row block x0 of x and the whole x1 of w that it reads: the
    zero block is written to the work buffer and read back (first write, first read), the product is added and
    the sum written and read back (second write, second read), and the format change of that is stored. -/
theorem block_eq (c : Dev nD) (i : grid0.Coords) (a2 : Memref sig .tc .vmem S512x256 .f32) (h2 : a2.IsWhole)
    (a3 : Memref sig .tc .vmem S256x128 .f32) (h3 : a3.IsWhole) (a4 : Memref sig .tc .vmem S512x128 .bf16) (h4 : a4.IsWhole)
    (a5 : Memref sig .tc .vmem S512x128 .f32) (h5 : a5.IsWhole) (hc0 : cond0_0 i) (hc1 : cond0_1 i)
    (x0 : Vec F S512x256 .f32) (x1 : Vec F S256x128 .f32) :
    out0_A_2 c i a2 h2 a3 h3 a4 h4 a5 h5 hc0 hc1 x0 x1 = k0_pay3 (k0_pay2 k0_pay1 x0 x1) := by
  unfold out0_A_2
  rw [View.read_writes_eq_canon _ _ _ (cover0_A_2 c i a2 h2 a3 h3 a4 h4 a5 h5 hc0 hc1 x0 x1)]
  unfold kernelRun0_A
  dsimp only
  sl_unfold_words
  rw [View.canon_unit_zero (S := S512x128) hz, readCov_cons_unit_zero (S := S512x128) _ hz,
    View.readCov_unit_zero (S := S512x128) _ hz]
  simp only [View.readAt_eq_ld, h2.read_unread, h3.read_unread, View.ld_unit_zero (S := S512x256) hz,
    View.ld_unit_zero (S := S256x128) hz]

end AnyFloats

/-! ## The block at an entry, on the extended reals -/

/-- The product contracts one axis, the 256 input features: -/
theorem dot_rank : (dot_S512x256_S256x128_S512x128_1_0_0_1_n_n).contr.rank = 1 := rfl
theorem dot_size :
    (dot_S512x256_S256x128_S512x128_1_0_0_1_n_n).contr.size ⟨0, by rw [dot_rank]; exact Nat.one_pos⟩ = 256 := rfl

/-- the left factor is read at (row of the result, contracted coordinate) -/
theorem dot_l0 (i : S512x128.Idx) (k : (dot_S512x256_S256x128_S512x128_1_0_0_1_n_n).contr.Idx) :
    ((dot_S512x256_S256x128_S512x128_1_0_0_1_n_n).lhsIdx i k 0).val = (i 0).val := by
  simp [DotDims.lhsIdx, dot_S512x256_S256x128_S512x128_1_0_0_1_n_n]; rfl
theorem dot_l1 (i : S512x128.Idx) (k : (dot_S512x256_S256x128_S512x128_1_0_0_1_n_n).contr.Idx) :
    ((dot_S512x256_S256x128_S512x128_1_0_0_1_n_n).lhsIdx i k 1).val
      = (k ⟨0, by rw [dot_rank]; exact Nat.one_pos⟩).val := by
  simp [DotDims.lhsIdx, dot_S512x256_S256x128_S512x128_1_0_0_1_n_n]; rfl
/-- and the right factor at (contracted coordinate, column of the result). -/
theorem dot_r0 (i : S512x128.Idx) (k : (dot_S512x256_S256x128_S512x128_1_0_0_1_n_n).contr.Idx) :
    ((dot_S512x256_S256x128_S512x128_1_0_0_1_n_n).rhsIdx i k 0).val
      = (k ⟨0, by rw [dot_rank]; exact Nat.one_pos⟩).val := by
  simp [DotDims.rhsIdx, dot_S512x256_S256x128_S512x128_1_0_0_1_n_n]; rfl
theorem dot_r1 (i : S512x128.Idx) (k : (dot_S512x256_S256x128_S512x128_1_0_0_1_n_n).contr.Idx) :
    ((dot_S512x256_S256x128_S512x128_1_0_0_1_n_n).rhsIdx i k 1).val = (i 1).val := by
  simp [DotDims.rhsIdx, dot_S512x256_S256x128_S512x128_1_0_0_1_n_n]; rfl

/-- The block a step leaves, read at row r and column q: the format change is the identity, the zero block adds
    nothing, and the product into the zero accumulator is the sum over the input features f of
    xb (r, f) · w (f, q).  The f32 zero word is the only literal whose value is used. -/
theorem payload_apply (xb : Vec Ideal S512x256 .f32) (w : Vec Ideal S256x128 .f32) (r : Fin 512) (q : Fin 128) :
    (k0_pay3 (F := Ideal) (k0_pay2 k0_pay1 xb w) : S512x128.Idx → EReal) (ix2 r q)
      = ∑ f : Fin 256, (xb : S512x256.Idx → EReal) (ix2 r f) * (w : S256x128.Idx → EReal) (ix2 f q) := by
  unfold k0_pay3 k0_pay2 k0_pay1
  dsimp only
  have hm := Cert.LibDense.matmul_zero_rc (φ₁ := .f32) (φ₂ := .f32) dot_S512x256_S256x128_S512x128_1_0_0_1_n_n
    dot_rank dot_size dot_l0 dot_l1 dot_r0 dot_r1 none xb w r q
  have h0 : (FloatOps.ofBits (F := Ideal) .f32 0#32 : EReal) = 0 := Ideal.ofBits_zero_f32
  rw [shapeCast_self, shapeCast_self]
  show (FloatOps.ofBits (F := Ideal) .f32 0#32 : EReal)
      + matmul dot_S512x256_S256x128_S512x128_1_0_0_1_n_n none xb w (constant S512x128 .f32 0x00000000#32) (ix2 r q) = _
  rw [hm, h0, zero_add]

/-- So when the block xb of x holds the rows 512·i + r of x, and wb is w, the block a step leaves is the rows
    512·i + r of the support matrix x · w: entry j of the block is entry (512·i + j₀, j₁) of the matrix. -/
theorem block_apply (x : S4096x256.Idx → EReal) (w : S256x128.Idx → EReal)
    (xb : Vec Ideal S512x256 .f32) (wb : Vec Ideal S256x128 .f32) (i : Fin 8)
    (hx : ∀ (r : Fin 512) (f : Fin 256), (xb : S512x256.Idx → EReal) (ix2 r f) = x (ix2 (node i r) f))
    (hw : ∀ (f : Fin 256) (q : Fin 128), (wb : S256x128.Idx → EReal) (ix2 f q) = w (ix2 f q))
    (j : S512x128.Idx) :
    (k0_pay3 (F := Ideal) (k0_pay2 k0_pay1 xb wb) : S512x128.Idx → EReal) j = support x w (ix2 (node i (j 0)) (j 1)) := by
  obtain ⟨r, q, rfl⟩ : ∃ (r : Fin 512) (q : Fin 128), j = ix2 r q := ⟨j 0, j 1, eq_ix2 j⟩
  show _ = support x w (ix2 (node i r) q)
  rw [payload_apply, support_apply]
  exact Finset.sum_congr rfl fun f _ => by rw [hx, hw]

end Cert.ReferenceIdeal.GcnSupport

end
-- ==== Proof.RefSupport.lean ====
/-
  The support matrix as a whole array.

  The first region has eight steps; step i reads the block of rows 512·i … 512·i + 511 of x (all 256 columns) and
  the whole of w, and writes back the block of rows 512·i … 512·i + 511 of its output (all 128 columns).  By the
  block lemma that block is those rows of x · w.  Row r of the output lies in the block of step r / 512, and every
  step writes its block back, so the eight blocks fill the output: after the region it holds the support matrix
  x · w, entry (k, q) the sum over the input features f of x (k, f) · w (f, q).
-/
import proofs.«131383_g2000703821448203_pallasbulk_153_16_alg».proof.Proof.RefSupportPieces

noncomputable section

open Idealize.ShloMosaic Idealize.ShloMosaic.TcCoe Idealize.SL.Sem
open Idealize.ShloMosaic.Pipeline (Dat)

namespace Cert.ReferenceIdeal.GcnSupport

open Cert.ReferenceIdeal Cert.ReferenceIdeal.Gen Idealize.ShloMosaic.ValueIdx
open Cert.GcnSpec (support support_apply node node_val)
open scoped BigOperators

-- the buffer contents when the region is entered
variable (V : (c : Dev nD) → (b : Ref sig .tc) → Buf (Elt Ideal) ((c : Thread nD τ).loc b))

/-- Which blocks step t works on: row block t of x (its one column block), the one block of w, and row block t
    of the output (its one column block). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What step t writes back is block t of the support matrix of the arrays as the region finds them. -/
theorem flushed_eq (c : Dev nD) (t : Fin cfg0.N) :
    (dat0 (F := Ideal) V c).flushed 2 t
      = ((cfg0.win 2).blk t).view.read (Elt Ideal)
          (support (V c main_arg0 : S4096x256.Idx → EReal) (V c main_arg2 : S256x128.Idx → EReal)) := by
  show (cfg0.win 2).cut (grid0.coords t) ((dat0 V c).after 2 t) = _
  rw [after0_2]
  unfold outsAt0
  rw [block_eq]
  obtain ⟨e00, e01, e10, e11, e20, e21⟩ := block_indices t
  have ht : t.val < 8 := by have := t.isLt; have hN : cfg0.N = 8 := N_0; omega
  funext j
  have hj0 : (j 0).val < 512 := (j 0).isLt
  have hj1 : (j 1).val < 128 := (j 1).isLt
  show (k0_pay3 (F := Ideal) (k0_pay2 k0_pay1 (iblk0 V c 0 t) (iblk0 V c 1 t)) : S512x128.Idx → EReal) j
      = support (V c main_arg0 : S4096x256.Idx → EReal) (V c main_arg2 : S256x128.Idx → EReal)
          (((cfg0.win 2).blk t).view.emb j)
  refine (block_apply (V c main_arg0 : S4096x256.Idx → EReal) (V c main_arg2 : S256x128.Idx → EReal)
    (iblk0 V c 0 t) (iblk0 V c 1 t) ⟨t.val, ht⟩ ?_ ?_ j).trans ?_
  · -- the block of x read at (r, f) is x at (512·t + r, f)
    intro r f
    show (V c main_arg0 : S4096x256.Idx → EReal) (((cfg0.win 0).blk t).view.emb (ix2 r f)) = _
    refine congrArg (V c main_arg0 : S4096x256.Idx → EReal) (funext fun a => Fin.ext ?_)
    match a with
    | ⟨0, _⟩ =>
      show win0_0.index t (0 : Fin 2) * 512 + 1 * r.val = t.val * 512 + r.val
      rw [e00]; omega
    | ⟨1, _⟩ =>
      show win0_0.index t (1 : Fin 2) * 256 + 1 * f.val = f.val
      rw [e01]; omega
  · -- the block of w is w
    intro f q
    show (V c main_arg2 : S256x128.Idx → EReal) (((cfg0.win 1).blk t).view.emb (ix2 f q)) = _
    refine congrArg (V c main_arg2 : S256x128.Idx → EReal) (funext fun a => Fin.ext ?_)
    match a with
    | ⟨0, _⟩ =>
      show win0_1.index t (0 : Fin 2) * 256 + 1 * f.val = f.val
      rw [e10]; omega
    | ⟨1, _⟩ =>
      show win0_1.index t (1 : Fin 2) * 128 + 1 * q.val = q.val
      rw [e11]; omega
  · -- entry j of the output's block t is entry (512·t + j₀, j₁) of the output
    refine congrArg (support (V c main_arg0 : S4096x256.Idx → EReal) (V c main_arg2 : S256x128.Idx → EReal))
      (funext fun a => Fin.ext ?_)
    match a with
    | ⟨0, _⟩ =>
      show t.val * 512 + (j 0).val = win0_2.index t (0 : Fin 2) * 512 + 1 * (j 0).val
      rw [e20]; omega
    | ⟨1, _⟩ =>
      show (j 1).val = win0_2.index t (1 : Fin 2) * 128 + 1 * (j 1).val
      rw [e21]; omega

/-- An entry of the output is in step t's block iff each coordinate is in the block's range on its axis. -/
theorem mem_block (t : Fin cfg0.N) (i : S4096x128.Idx) :
    i ∈ ((cfg0.win 2).blk t).view.set ↔ ∀ a : Fin 2, win0_2.index t a * S512x128.size a ≤ (i a).val
      ∧ (i a).val < win0_2.index t a * S512x128.size a + S512x128.size a := by
  show i ∈ ((View.whole main_v2).slice (win0_2.rect t)).set ↔ _
  rw [View.set_slice_whole, Rect.mem_set_unit]
  exact Iff.rfl

/-- Row r of the output is in the block of step r / 512, which is written back: the eight blocks fill the output. -/
theorem covered (i : S4096x128.Idx) :
    ∃ t : Fin cfg0.N, (cfg0.win 2).flush t = true ∧ i ∈ ((cfg0.win 2).blk t).view.set := by
  have hi0 : (i 0).val < 4096 := (i 0).isLt
  have hi1 : (i 1).val < 128 := (i 1).isLt
  have hlt : (i 0).val / 512 < cfg0.N := by rw [show cfg0.N = 8 from N_0]; omega
  obtain ⟨-, -, -, -, e20, e21⟩ := block_indices ⟨(i 0).val / 512, hlt⟩
  refine ⟨⟨(i 0).val / 512, hlt⟩, flush0_2 _, ?_⟩
  rw [mem_block]
  intro a
  match a with
  | ⟨0, _⟩ =>
    show win0_2.index ⟨(i 0).val / 512, hlt⟩ (0 : Fin 2) * 512 ≤ (i 0).val
      ∧ (i 0).val < win0_2.index ⟨(i 0).val / 512, hlt⟩ (0 : Fin 2) * 512 + 512
    rw [e20]; dsimp only; omega
  | ⟨1, _⟩ =>
    show win0_2.index ⟨(i 0).val / 512, hlt⟩ (1 : Fin 2) * 128 ≤ (i 1).val
      ∧ (i 1).val < win0_2.index ⟨(i 0).val / 512, hlt⟩ (1 : Fin 2) * 128 + 128
    rw [e21]; omega

/-- After the first region its output array holds the support matrix x · w of the arrays as the region finds them. -/
theorem support_arr (c : Dev nD) :
    ((dat0 (F := Ideal) V c).arrAt 2 cfg0.N : S4096x128.Idx → EReal)
      = Cert.GcnSpec.support (V c main_arg0) (V c main_arg2) :=
  (dat0 (F := Ideal) V c).arrAt_eq_of_cover 2
    (support (V c main_arg0 : S4096x256.Idx → EReal) (V c main_arg2 : S256x128.Idx → EReal))
    (fun t _ => flushed_eq V c t) covered

end Cert.ReferenceIdeal.GcnSupport

end
-- ==== Proof.RefValue.lean ====
/-
  The reference program's result as a function of its launch arrays.  Before the launches the host casts
  the bias to one row (a reshape) and changes the adjacency's float format (the identity on the extended
  reals); the first launch leaves the support matrix of the features and the weights; the second launch,
  entered with that support, leaves `accum` of the adjacency, the support and the bias row — which is the
  layer's function `gcn` of the four launch arrays.
-/
import proofs.«131383_g2000703821448203_pallasbulk_153_16_alg».proof.Proof.RefRun
import proofs.«131383_g2000703821448203_pallasbulk_153_16_alg».proof.Proof.RefAccum
import proofs.«131383_g2000703821448203_pallasbulk_153_16_alg».proof.Proof.RefSupport
import Idealize.ShloMosaic.Lib.StableHlo.Run
import Idealize.ShloMosaic.Lib.ValueLayout

set_option maxRecDepth 16384

noncomputable section

namespace Cert.ReferenceIdeal.GcnRef

open Cert.ReferenceIdeal Cert.ReferenceIdeal.Gen
open Idealize.ShloMosaic Idealize.ShloMosaic.TcCoe Idealize.ShloMosaic.ValueIdx Idealize.SL.Sem
open Idealize.ShloMosaic.StableHlo
open scoped BigOperators

variable (m : (ℓ : Loc nD τ sig) → Buf (Elt Ideal) ℓ) (ρ : Dev nD → PrngReg)

/-- The four launch arrays, as arrays of extended reals. -/
abbrev xArr (c : Dev nD) : S4096x256.Idx → EReal := m ((c : Thread nD τ).loc main_arg0)
abbrev adjArr (c : Dev nD) : S4096x4096.Idx → EReal := m ((c : Thread nD τ).loc main_arg1)
abbrev wArr (c : Dev nD) : S256x128.Idx → EReal := m ((c : Thread nD τ).loc main_arg2)
abbrev bArr (c : Dev nD) : S128.Idx → EReal := m ((c : Thread nD τ).loc main_arg3)

/-- At the first launch's entry the features and the weights are as launched: the host stretch writes neither. -/
theorem entry_x (c : Dev nD) : (V1 m ρ c main_arg0 : S4096x256.Idx → EReal) = xArr m c := by
  show StableHlo.after hostOps0 (W0 m ρ c) (Proc.devRef .tc main_arg0) = _
  after_results

theorem entry_w (c : Dev nD) : (V1 m ρ c main_arg2 : S256x128.Idx → EReal) = wArr m c := by
  show StableHlo.after hostOps0 (W0 m ρ c) (Proc.devRef .tc main_arg2) = _
  after_results

/-- The bias row is the launch bias cast to one row. -/
theorem entry_bias (c : Dev nD) :
    (V1 m ρ c main_v0 : S1x128.Idx → EReal) = shapeCast S1x128 (bArr m c) shapeCasts_S128_S1x128 := by
  show StableHlo.after hostOps0 (W0 m ρ c) (Proc.devRef .tc main_v0) = _
  after_results
  rfl

/-- The adjacency in the narrower float format is the launch adjacency: a change of format is the identity. -/
theorem entry_adj (c : Dev nD) : (V1 m ρ c main_v1 : S4096x4096.Idx → EReal) = adjArr m c := by
  show StableHlo.after hostOps0 (W0 m ρ c) (Proc.devRef .tc main_v1) = _
  after_results
  rfl

/-- THE RESULT: the last boundary's contents of the result's buffer are the layer's function of the launch arrays. -/
theorem result_eq (c : Dev nD) :
    (W3 m ρ c (Proc.devRef .tc main_v3) : S4096x128.Idx → EReal)
      = Cert.GcnSpec.gcn (xArr m c) (adjArr m c) (wArr m c) (bArr m c) := by
  have e1 : (V2 m ρ c main_v1 : S4096x4096.Idx → EReal) = V1 m ρ c main_v1 := W2_of_ne m ρ c main_v1 (by decide)
  have e0 : (V2 m ρ c main_v0 : S1x128.Idx → EReal) = V1 m ρ c main_v0 := W2_of_ne m ρ c main_v0 (by decide)
  have e2 : (V2 m ρ c main_v2 : S4096x128.Idx → EReal) = (dat0 (V1 m ρ) c).arrAt 2 cfg0.N := W2_arr m ρ c 2
  rw [Cert.ReferenceIdeal.GcnRun.result_arr, Cert.ReferenceIdeal.GcnAccum.accum_arr (V2 m ρ) c]
  unfold Cert.ReferenceIdeal.GcnAccum.adjAt Cert.ReferenceIdeal.GcnAccum.supAt Cert.ReferenceIdeal.GcnAccum.biasAt
  rw [e0, e1, e2, Cert.ReferenceIdeal.GcnSupport.support_arr (V1 m ρ) c, entry_bias, entry_adj, entry_x, entry_w]
  funext i
  obtain ⟨p, q, rfl⟩ : ∃ (p : Fin 4096) (q : Fin 128), i = ix2 p q := ⟨i 0, i 1, eq_ix2 i⟩
  rw [Cert.ReferenceIdeal.GcnAccum.accum_apply, Cert.GcnSpec.gcn_apply]
  congr 1
  exact shapeCast_a_1a_apply (bArr m c) shapeCasts_S128_S1x128 0 q

/-- The reference's run, read: the result array at the layer's function of the launch arrays, the arguments unchanged. -/
theorem run : θ_run (defs (F := Ideal)) (onTc (τ := τ) (main (F := Ideal))) ⟨m, fun _ => 0, ρ⟩ (fun r => ∀ c : Dev nD,
      r.2.mem ((c.tc : Thread nD τ).loc main_v3) = Cert.GcnSpec.gcn (xArr m c) (adjArr m c) (wArr m c) (bArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩)
    (Cert.ReferenceIdeal.GcnRun.run_named (F := Ideal) m ρ)

end Cert.ReferenceIdeal.GcnRef

end
-- ==== Proof.lean ====
/-
  The graph-convolution layer  out = adj · (x · W) + bias  (4096 nodes, 256 input and 128 output features)
  as two programs that agree on the extended reals.

  The kernel computes the support matrix x · W once, at the first of its eight grid points, into a buffer it
  keeps; at every point it multiplies one block of 512 rows of the adjacency, over all 4096 columns, with
  that support and adds the bias row.  The reference computes the support in a launch of its own, and in a
  second launch cuts the adjacency into 512-by-512 blocks: for each row block it adds the eight block
  products one after the other onto a zero block and adds the bias after the last.

  Entry (p, q) of either result is  (∑ k, adj (p, k) · (∑ f, x (k, f) · W (f, q))) + bias q  (`GcnSpec.gcn`):
  the two arrangements differ in how the sum over the 4096 nodes is grouped — eight blocks of 512 added in
  order from zero — and extended-real addition is associative and commutative, so the entries' finiteness
  is never used.  A change of float format is the identity on the extended reals, so the reference's
  narrower storage of the adjacency and of the support changes nothing.

  Nothing was rewritten when the kernel was idealized, so that claim is trivial; the three programs' runs
  terminating without fault, with the arguments unchanged, are the generated frame certificates.
-/
import proofs.«131383_g2000703821448203_pallasbulk_153_16_alg».proof.Defs
import proofs.«131383_g2000703821448203_pallasbulk_153_16_alg».proof.Proof.Gen.Kernel
import proofs.«131383_g2000703821448203_pallasbulk_153_16_alg».proof.Proof.Gen.Kernel.Skeleton
import proofs.«131383_g2000703821448203_pallasbulk_153_16_alg».proof.Proof.Gen.Kernel.Launch
import proofs.«131383_g2000703821448203_pallasbulk_153_16_alg».proof.Proof.Gen.Kernel.Points
import proofs.«131383_g2000703821448203_pallasbulk_153_16_alg».proof.Proof.Gen.Kernel.Frame
import proofs.«131383_g2000703821448203_pallasbulk_153_16_alg».proof.Proof.Gen.KernelIdeal
import proofs.«131383_g2000703821448203_pallasbulk_153_16_alg».proof.Proof.Gen.KernelIdeal.Skeleton
import proofs.«131383_g2000703821448203_pallasbulk_153_16_alg».proof.Proof.Gen.KernelIdeal.Launch
import proofs.«131383_g2000703821448203_pallasbulk_153_16_alg».proof.Proof.Gen.KernelIdeal.Points
import proofs.«131383_g2000703821448203_pallasbulk_153_16_alg».proof.Proof.Gen.KernelIdeal.Frame
import proofs.«131383_g2000703821448203_pallasbulk_153_16_alg».proof.Proof.Gen.ReferenceIdeal
import proofs.«131383_g2000703821448203_pallasbulk_153_16_alg».proof.Proof.Gen.ReferenceIdeal.Skeleton
import proofs.«131383_g2000703821448203_pallasbulk_153_16_alg».proof.Proof.Gen.ReferenceIdeal.Launch
import proofs.«131383_g2000703821448203_pallasbulk_153_16_alg».proof.Proof.Gen.ReferenceIdeal.Points
import proofs.«131383_g2000703821448203_pallasbulk_153_16_alg».proof.Proof.Gen.ReferenceIdeal.Frame
import proofs.«131383_g2000703821448203_pallasbulk_153_16_alg».proof.Proof.Gen.Pre_finite_inputs
import proofs.«131383_g2000703821448203_pallasbulk_153_16_alg».proof.Proof.Gen.KernelIdeal.Value
import proofs.«131383_g2000703821448203_pallasbulk_153_16_alg».proof.Proof.KernelValue
import proofs.«131383_g2000703821448203_pallasbulk_153_16_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- The idealized kernel is the kernel's own text read on the extended reals: nothing was rewritten. -/
theorem preserves : Cert.preserves_Kernel_KernelIdeal := trivial

/-- Both programs end with the layer's function of arguments that agree. -/
theorem algebraic : Cert.algebraic_KernelIdeal_ReferenceIdeal := by
  intro m ρ m' ρ' _ hagree
  refine ⟨_, Cert.KernelIdeal.GcnValue.run m ρ, ?_⟩
  refine (θ_run Cert.ReferenceIdeal.defs _ _).mono (fun _ h c => ⟨(h c).1.trans ?_, (h c).2⟩)
    (Cert.ReferenceIdeal.GcnRef.run m' ρ')
  obtain ⟨a0, a1, a2, a3⟩ := hagree c
  dsimp only [Cert.ReferenceIdeal.GcnRef.xArr, Cert.ReferenceIdeal.GcnRef.adjArr, Cert.ReferenceIdeal.GcnRef.wArr,
    Cert.ReferenceIdeal.GcnRef.bArr]
  rw [a0, a1, a2, a3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
